-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.sign_bit.Statement Cert.KernelIdeal.S1x192x16x64 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x192x64x64 : Shape := ⟨4, ![16, 192, 64, 64]⟩
abbrev S192x3x1 : Shape := ⟨3, ![192, 3, 1]⟩
abbrev S192x3x3 : Shape := ⟨3, ![192, 3, 3]⟩
abbrev S192x1x3 : Shape := ⟨3, ![192, 1, 3]⟩
abbrev S192x1x1 : Shape := ⟨3, ![192, 1, 1]⟩
abbrev S3x192x3x1 : Shape := ⟨4, ![3, 192, 3, 1]⟩
abbrev S_ : Shape := ⟨0, ![]⟩

class Facts : Prop where
  bcast_S_S16x192x64x64 : S_.BroadcastsInDim S16x192x64x64 (![] : Fin 0 → Fin S16x192x64x64.rank)
  reducesTo_S16x192x64x64_S_d0_1_2_3 : S16x192x64x64.ReducesTo [0, 1, 2, 3] S_
  h_S_ : 0 < S_.numel
  bcast_S_S192x3x1 : S_.BroadcastsInDim S192x3x1 (![] : Fin 0 → Fin S192x3x1.rank)
  reducesTo_S192x3x1_S_d0_1_2 : S192x3x1.ReducesTo [0, 1, 2] S_
  bcast_S_S192x3x3 : S_.BroadcastsInDim S192x3x3 (![] : Fin 0 → Fin S192x3x3.rank)
  reducesTo_S192x3x3_S_d0_1_2 : S192x3x3.ReducesTo [0, 1, 2] S_
  bcast_S_S192x1x3 : S_.BroadcastsInDim S192x1x3 (![] : Fin 0 → Fin S192x1x3.rank)
  reducesTo_S192x1x3_S_d0_1_2 : S192x1x3.ReducesTo [0, 1, 2] S_
  bcast_S_S192x1x1 : S_.BroadcastsInDim S192x1x1 (![] : Fin 0 → Fin S192x1x1.rank)
  reducesTo_S192x1x1_S_d0_1_2 : S192x1x1.ReducesTo [0, 1, 2] S_
  bcast_S_S3x192x3x1 : S_.BroadcastsInDim S3x192x3x1 (![] : Fin 0 → Fin S3x192x3x1.rank)
  reducesTo_S3x192x3x1_S_d0_1_2_3 : S3x192x3x1.ReducesTo [0, 1, 2, 3] S_

variable [Facts]

def fn_part2 {F : FTy → Type} [FloatOps F] (main_arg7 : FVec F S192x3x1 .f32) (main_arg8 : FVec F S192x1x1 .f32) (main_arg9 : FVec F S3x192x3x1 .f32) (main_v33 : IVec S_ 1) : IVec S_ 1 :=
  let main_v34 : FVec F S192x3x1 .f32 := Host.absf main_arg7
  let main_cst_12 : FVec F S_ .f32 := constant S_ .f32 0x7F800000#32
  let main_v35 : FVec F S192x3x1 .f32 := broadcastInDim S192x3x1 ![] bcast_S_S192x3x1 main_cst_12
  let main_v36 : IVec S192x3x1 1 := cmpf .olt main_v34 main_v35
  let main_c_13 : IVec S_ 1 := constantI S_ 1 1#1
  let main_v37 : IVec S_ 1 := (fun x v => Host.reduce IntOp.andi x v reducesTo_S192x3x1_S_d0_1_2 h_S_) main_v36 main_c_13
  let main_v38 : IVec S_ 1 := andi main_v33 main_v37
  let main_v39 : FVec F S192x1x1 .f32 := Host.absf main_arg8
  let main_cst_14 : FVec F S_ .f32 := constant S_ .f32 0x7F800000#32
  let main_v40 : FVec F S192x1x1 .f32 := broadcastInDim S192x1x1 ![] bcast_S_S192x1x1 main_cst_14
  let main_v41 : IVec S192x1x1 1 := cmpf .olt main_v39 main_v40
  let main_c_15 : IVec S_ 1 := constantI S_ 1 1#1
  let main_v42 : IVec S_ 1 := (fun x v => Host.reduce IntOp.andi x v reducesTo_S192x1x1_S_d0_1_2 h_S_) main_v41 main_c_15
  let main_v43 : IVec S_ 1 := andi main_v38 main_v42
  let main_v44 : FVec F S3x192x3x1 .f32 := Host.absf main_arg9
  let main_cst_16 : FVec F S_ .f32 := constant S_ .f32 0x7F800000#32
  let main_v45 : FVec F S3x192x3x1 .f32 := broadcastInDim S3x192x3x1 ![] bcast_S_S3x192x3x1 main_cst_16
  let main_v46 : IVec S3x192x3x1 1 := cmpf .olt main_v44 main_v45
  let main_c_17 : IVec S_ 1 := constantI S_ 1 1#1
  let main_v47 : IVec S_ 1 := (fun x v => Host.reduce IntOp.andi x v reducesTo_S3x192x3x1_S_d0_1_2_3 h_S_) main_v46 main_c_17
  let main_v48 : IVec S_ 1 := andi main_v43 main_v47
  main_v48

def fn_part1 {F : FTy → Type} [FloatOps F] (main_arg4 : FVec F S192x1x3 .f32) (main_arg5 : FVec F S192x3x1 .f32) (main_arg6 : FVec F S192x3x1 .f32) (main_arg7 : FVec F S192x3x1 .f32) (main_arg8 : FVec F S192x1x1 .f32) (main_arg9 : FVec F S3x192x3x1 .f32) (main_v13 : IVec S_ 1) (main_v16 : IVec S192x3x3 1) : IVec S_ 1 :=
  let main_c_5 : IVec S_ 1 := constantI S_ 1 1#1
  let main_v17 : IVec S_ 1 := (fun x v => Host.reduce IntOp.andi x v reducesTo_S192x3x3_S_d0_1_2 h_S_) main_v16 main_c_5
  let main_v18 : IVec S_ 1 := andi main_v13 main_v17
  let main_v19 : FVec F S192x1x3 .f32 := Host.absf main_arg4
  let main_cst_6 : FVec F S_ .f32 := constant S_ .f32 0x7F800000#32
  let main_v20 : FVec F S192x1x3 .f32 := broadcastInDim S192x1x3 ![] bcast_S_S192x1x3 main_cst_6
  let main_v21 : IVec S192x1x3 1 := cmpf .olt main_v19 main_v20
  let main_c_7 : IVec S_ 1 := constantI S_ 1 1#1
  let main_v22 : IVec S_ 1 := (fun x v => Host.reduce IntOp.andi x v reducesTo_S192x1x3_S_d0_1_2 h_S_) main_v21 main_c_7
  let main_v23 : IVec S_ 1 := andi main_v18 main_v22
  let main_v24 : FVec F S192x3x1 .f32 := Host.absf main_arg5
  let main_cst_8 : FVec F S_ .f32 := constant S_ .f32 0x7F800000#32
  let main_v25 : FVec F S192x3x1 .f32 := broadcastInDim S192x3x1 ![] bcast_S_S192x3x1 main_cst_8
  let main_v26 : IVec S192x3x1 1 := cmpf .olt main_v24 main_v25
  let main_c_9 : IVec S_ 1 := constantI S_ 1 1#1
  let main_v27 : IVec S_ 1 := (fun x v => Host.reduce IntOp.andi x v reducesTo_S192x3x1_S_d0_1_2 h_S_) main_v26 main_c_9
  let main_v28 : IVec S_ 1 := andi main_v23 main_v27
  let main_v29 : FVec F S192x3x1 .f32 := Host.absf main_arg6
  let main_cst_10 : FVec F S_ .f32 := constant S_ .f32 0x7F800000#32
  let main_v30 : FVec F S192x3x1 .f32 := broadcastInDim S192x3x1 ![] bcast_S_S192x3x1 main_cst_10
  let main_v31 : IVec S192x3x1 1 := cmpf .olt main_v29 main_v30
  let main_c_11 : IVec S_ 1 := constantI S_ 1 1#1
  let main_v32 : IVec S_ 1 := (fun x v => Host.reduce IntOp.andi x v reducesTo_S192x3x1_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S16x192x64x64 .f32) (main_arg1 : FVec F S192x3x1 .f32) (main_arg2 : FVec F S192x3x3 .f32) (main_arg3 : FVec F S192x3x3 .f32) (main_arg4 : FVec F S192x1x3 .f32) (main_arg5 : FVec F S192x3x1 .f32) (main_arg6 : FVec F S192x3x1 .f32) (main_arg7 : FVec F S192x3x1 .f32) (main_arg8 : FVec F S192x1x1 .f32) (main_arg9 : FVec F S3x192x3x1 .f32) : IVec S_ 1 :=
  let main_v0 : FVec F S16x192x64x64 .f32 := Host.absf main_arg0
  let main_cst : FVec F S_ .f32 := constant S_ .f32 0x7F800000#32
  let main_v1 : FVec F S16x192x64x64 .f32 := broadcastInDim S16x192x64x64 ![] bcast_S_S16x192x64x64 main_cst
  let main_v2 : IVec S16x192x64x64 1 := cmpf .olt main_v0 main_v1
  let main_c : IVec S_ 1 := constantI S_ 1 1#1
  let main_v3 : IVec S_ 1 := (fun x v => Host.reduce IntOp.andi x v reducesTo_S16x192x64x64_S_d0_1_2_3 h_S_) main_v2 main_c
  let main_v4 : FVec F S192x3x1 .f32 := Host.absf main_arg1
  let main_cst_0 : FVec F S_ .f32 := constant S_ .f32 0x7F800000#32
  let main_v5 : FVec F S192x3x1 .f32 := broadcastInDim S192x3x1 ![] bcast_S_S192x3x1 main_cst_0
  let main_v6 : IVec S192x3x1 1 := cmpf .olt main_v4 main_v5
  let main_c_1 : IVec S_ 1 := constantI S_ 1 1#1
  let main_v7 : IVec S_ 1 := (fun x v => Host.reduce IntOp.andi x v reducesTo_S192x3x1_S_d0_1_2 h_S_) main_v6 main_c_1
  let main_v8 : IVec S_ 1 := andi main_v3 main_v7
  let main_v9 : FVec F S192x3x3 .f32 := Host.absf main_arg2
  let main_cst_2 : FVec F S_ .f32 := constant S_ .f32 0x7F800000#32
  let main_v10 : FVec F S192x3x3 .f32 := broadcastInDim S192x3x3 ![] bcast_S_S192x3x3 main_cst_2
  let main_v11 : IVec S192x3x3 1 := cmpf .olt main_v9 main_v10
  let main_c_3 : IVec S_ 1 := constantI S_ 1 1#1
  let main_v12 : IVec S_ 1 := (fun x v => Host.reduce IntOp.andi x v reducesTo_S192x3x3_S_d0_1_2 h_S_) main_v11 main_c_3
  let main_v13 : IVec S_ 1 := andi main_v8 main_v12
  let main_v14 : FVec F S192x3x3 .f32 := Host.absf main_arg3
  let main_cst_4 : FVec F S_ .f32 := constant S_ .f32 0x7F800000#32
  let main_v15 : FVec F S192x3x3 .f32 := broadcastInDim S192x3x3 ![] bcast_S_S192x3x3 main_cst_4
  let main_v16 : IVec S192x3x3 1 := cmpf .olt main_v14 main_v15
  fn_part1 (F := F) main_arg4 main_arg5 main_arg6 main_arg7 main_arg8 main_arg9 main_v13 main_v16
-- ==== Kernel.lean ====
abbrev S16x192x64x64 : Shape := ⟨4, ![16, 192, 64, 64]⟩
abbrev S192x3x1 : Shape := ⟨3, ![192, 3, 1]⟩
abbrev S192x3x3 : Shape := ⟨3, ![192, 3, 3]⟩
abbrev S192x1x3 : Shape := ⟨3, ![192, 1, 3]⟩
abbrev S192x1x1 : Shape := ⟨3, ![192, 1, 1]⟩
abbrev S3x192x3x1 : Shape := ⟨4, ![3, 192, 3, 1]⟩
abbrev S_ : Shape := ⟨0, ![]⟩
abbrev S1x192x3x1 : Shape := ⟨4, ![1, 192, 3, 1]⟩
abbrev S1x192x3x3 : Shape := ⟨4, ![1, 192, 3, 3]⟩
abbrev S1x192x1x3 : Shape := ⟨4, ![1, 192, 1, 3]⟩
abbrev S1x192x1x1 : Shape := ⟨4, ![1, 192, 1, 1]⟩
abbrev S1x192x16x64 : Shape := ⟨4, ![1, 192, 16, 64]⟩

abbrev nBuf : Space → Nat
  | .hbm => 94
  | .vmem => 17
  | .smem => 0
  | _ => 0

abbrev bufTy : (tb : Table) → Fin (tcTables nBuf tb) → BufTy
  | .hbm, ⟨0, _⟩ => ⟨S16x192x64x64, .f32⟩
  | .hbm, ⟨1, _⟩ => ⟨S192x3x1, .f32⟩
  | .hbm, ⟨2, _⟩ => ⟨S192x3x3, .f32⟩
  | .hbm, ⟨3, _⟩ => ⟨S192x3x3, .f32⟩
  | .hbm, ⟨4, _⟩ => ⟨S192x1x3, .f32⟩
  | .hbm, ⟨5, _⟩ => ⟨S192x3x1, .f32⟩
  | .hbm, ⟨6, _⟩ => ⟨S192x3x1, .f32⟩
  | .hbm, ⟨7, _⟩ => ⟨S192x3x1, .f32⟩
  | .hbm, ⟨8, _⟩ => ⟨S192x1x1, .f32⟩
  | .hbm, ⟨9, _⟩ => ⟨S3x192x3x1, .f32⟩
  | .hbm, ⟨10, _⟩ => ⟨S_, .f32⟩
  | .hbm, ⟨11, _⟩ => ⟨S192x3x1, .f32⟩
  | .hbm, ⟨12, _⟩ => ⟨S192x3x1, .f32⟩
  | .hbm, ⟨13, _⟩ => ⟨S192x3x1, .f32⟩
  | .hbm, ⟨14, _⟩ => ⟨S192x3x1, .f32⟩
  | .hbm, ⟨15, _⟩ => ⟨S192x3x1, .i1⟩
  | .hbm, ⟨16, _⟩ => ⟨S192x3x1, .f32⟩
  | .hbm, ⟨17, _⟩ => ⟨S192x3x1, .f32⟩
  | .hbm, ⟨18, _⟩ => ⟨S192x3x1, .f32⟩
  | .hbm, ⟨19, _⟩ => ⟨S192x3x1, .f32⟩
  | .hbm, ⟨20, _⟩ => ⟨S192x3x1, .f32⟩
  | .hbm, ⟨21, _⟩ => ⟨S192x3x1, .f32⟩
  | .hbm, ⟨22, _⟩ => ⟨S192x3x1, .f32⟩
  | .hbm, ⟨23, _⟩ => ⟨S192x3x1, .f32⟩
  | .hbm, ⟨24, _⟩ => ⟨S1x192x3x1, .f32⟩
  | .hbm, ⟨25, _⟩ => ⟨S_, .f32⟩
  | .hbm, ⟨26, _⟩ => ⟨S192x3x3, .f32⟩
  | .hbm, ⟨27, _⟩ => ⟨S192x3x3, .f32⟩
  | .hbm, ⟨28, _⟩ => ⟨S192x3x3, .f32⟩
  | .hbm, ⟨29, _⟩ => ⟨S192x3x3, .f32⟩
  | .hbm, ⟨30, _⟩ => ⟨S192x3x3, .i1⟩
  | .hbm, ⟨31, _⟩ => ⟨S192x3x3, .f32⟩
  | .hbm, ⟨32, _⟩ => ⟨S192x3x3, .f32⟩
  | .hbm, ⟨33, _⟩ => ⟨S192x3x3, .f32⟩
  | .hbm, ⟨34, _⟩ => ⟨S192x3x3, .f32⟩
  | .hbm, ⟨35, _⟩ => ⟨S192x3x3, .f32⟩
  | .hbm, ⟨36, _⟩ => ⟨S192x3x3, .f32⟩
  | .hbm, ⟨37, _⟩ => ⟨S192x3x3, .f32⟩
  | .hbm, ⟨38, _⟩ => ⟨S192x3x3, .f32⟩
  | .hbm, ⟨39, _⟩ => ⟨S1x192x3x3, .f32⟩
  | .hbm, ⟨40, _⟩ => ⟨S_, .f32⟩
  | .hbm, ⟨41, _⟩ => ⟨S192x3x3, .f32⟩
  | .hbm, ⟨42, _⟩ => ⟨S192x3x3, .f32⟩
  | .hbm, ⟨43, _⟩ => ⟨S192x3x3, .f32⟩
  | .hbm, ⟨44, _⟩ => ⟨S192x3x3, .f32⟩
  | .hbm, ⟨45, _⟩ => ⟨S192x3x3, .i1⟩
  | .hbm, ⟨46, _⟩ => ⟨S192x3x3, .f32⟩
  | .hbm, ⟨47, _⟩ => ⟨S192x3x3, .f32⟩
  | .hbm, ⟨48, _⟩ => ⟨S192x3x3, .f32⟩
  | .hbm, ⟨49, _⟩ => ⟨S192x3x3, .f32⟩
  | .hbm, ⟨50, _⟩ => ⟨S192x3x3, .f32⟩
  | .hbm, ⟨51, _⟩ => ⟨S192x3x3, .f32⟩
  | .hbm, ⟨52, _⟩ => ⟨S192x3x3, .f32⟩
  | .hbm, ⟨53, _⟩ => ⟨S192x3x3, .f32⟩
  | .hbm, ⟨54, _⟩ => ⟨S1x192x3x3, .f32⟩
  | .hbm, ⟨55, _⟩ => ⟨S_, .f32⟩
  | .hbm, ⟨56, _⟩ => ⟨S192x1x3, .f32⟩
  | .hbm, ⟨57, _⟩ => ⟨S192x1x3, .f32⟩
  | .hbm, ⟨58, _⟩ => ⟨S192x1x3, .f32⟩
  | .hbm, ⟨59, _⟩ => ⟨S192x1x3, .f32⟩
  | .hbm, ⟨60, _⟩ => ⟨S192x1x3, .i1⟩
  | .hbm, ⟨61, _⟩ => ⟨S192x1x3, .f32⟩
  | .hbm, ⟨62, _⟩ => ⟨S192x1x3, .f32⟩
  | .hbm, ⟨63, _⟩ => ⟨S192x1x3, .f32⟩
  | .hbm, ⟨64, _⟩ => ⟨S192x1x3, .f32⟩
  | .hbm, ⟨65, _⟩ => ⟨S192x1x3, .f32⟩
  | .hbm, ⟨66, _⟩ => ⟨S192x1x3, .f32⟩
  | .hbm, ⟨67, _⟩ => ⟨S192x1x3, .f32⟩
  | .hbm, ⟨68, _⟩ => ⟨S192x1x3, .f32⟩
  | .hbm, ⟨69, _⟩ => ⟨S1x192x1x3, .f32⟩
  | .hbm, ⟨70, _⟩ => ⟨S1x192x3x1, .f32⟩
  | .hbm, ⟨71, _⟩ => ⟨S1x192x3x1, .f32⟩
  | .hbm, ⟨72, _⟩ => ⟨S1x192x3x1, .f32⟩
  | .hbm, ⟨73, _⟩ => ⟨S1x192x1x1, .f32⟩
  | .hbm, ⟨74, _⟩ => ⟨S1x192x3x1, .f32⟩
  | .hbm, ⟨75, _⟩ => ⟨S192x3x1, .f32⟩
  | .hbm, ⟨76, _⟩ => ⟨S192x3x1, .f32⟩
  | .hbm, ⟨77, _⟩ => ⟨S1x192x3x1, .f32⟩
  | .hbm, ⟨78, _⟩ => ⟨S192x3x1, .f32⟩
  | .hbm, ⟨79, _⟩ => ⟨S1x192x3x1, .f32⟩
  | .hbm, ⟨80, _⟩ => ⟨S1x192x3x1, .f32⟩
  | .hbm, ⟨81, _⟩ => ⟨S192x3x1, .f32⟩
  | .hbm, ⟨82, _⟩ => ⟨S192x3x1, .f32⟩
  | .hbm, ⟨83, _⟩ => ⟨S1x192x3x1, .f32⟩
  | .hbm, ⟨84, _⟩ => ⟨S192x3x1, .f32⟩
  | .hbm, ⟨85, _⟩ => ⟨S1x192x3x1, .f32⟩
  | .hbm, ⟨86, _⟩ => ⟨S1x192x3x1, .f32⟩
  | .hbm, ⟨87, _⟩ => ⟨S192x3x1, .f32⟩
  | .hbm, ⟨88, _⟩ => ⟨S192x3x1, .f32⟩
  | .hbm, ⟨89, _⟩ => ⟨S1x192x3x1, .f32⟩
  | .hbm, ⟨90, _⟩ => ⟨S192x3x1, .f32⟩
  | .hbm, ⟨91, _⟩ => ⟨S1x192x3x1, .f32⟩
  | .hbm, ⟨92, _⟩ => ⟨S16x192x64x64, .f32⟩
  | .hbm, ⟨93, _⟩ => ⟨S16x192x64x64, .f32⟩
  | .local _ .vmem, ⟨0, _⟩ => ⟨S1x192x16x64, .f32⟩
  | .local _ .vmem, ⟨1, _⟩ => ⟨S1x192x16x64, .f32⟩
  | .local _ .vmem, ⟨2, _⟩ => ⟨S1x192x3x1, .f32⟩
  | .local _ .vmem, ⟨3, _⟩ => ⟨S1x192x3x3, .f32⟩
  | .local _ .vmem, ⟨4, _⟩ => ⟨S1x192x3x3, .f32⟩
  | .local _ .vmem, ⟨5, _⟩ => ⟨S1x192x1x3, .f32⟩
  | .local _ .vmem, ⟨6, _⟩ => ⟨S1x192x3x1, .f32⟩
  | .local _ .vmem, ⟨7, _⟩ => ⟨S1x192x3x1, .f32⟩
  | .local _ .vmem, ⟨8, _⟩ => ⟨S1x192x3x1, .f32⟩
  | .local _ .vmem, ⟨9, _⟩ => ⟨S1x192x1x1, .f32⟩
  | .local _ .vmem, ⟨10, _⟩ => ⟨S1x192x3x1, .f32⟩
  | .local _ .vmem, ⟨11, _⟩ => ⟨S1x192x3x1, .f32⟩
  | .local _ .vmem, ⟨12, _⟩ => ⟨S1x192x3x1, .f32⟩
  | .local _ .vmem, ⟨13, _⟩ => ⟨S1x192x16x64, .f32⟩
  | .local _ .vmem, ⟨14, _⟩ => ⟨S1x192x16x64, .f32⟩
  | .local _ .vmem, ⟨15, _⟩ => ⟨S1x192x16x64, .f32⟩
  | .local _ .vmem, ⟨16, _⟩ => ⟨S1x192x16x64, .f32⟩
  | _, _ => ⟨S16x192x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v0 : Ref sig .tc := ⟨.hbm, 23, rfl⟩
abbrev main_v1 : Ref sig .tc := ⟨.hbm, 24, rfl⟩
abbrev main_call1_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_v2 : Ref sig .tc := ⟨.hbm, 38, rfl⟩
abbrev main_v3 : Ref sig .tc := ⟨.hbm, 39, rfl⟩
abbrev main_call2_cst : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_v4 : Ref sig .tc := ⟨.hbm, 53, rfl⟩
abbrev main_v5 : Ref sig .tc := ⟨.hbm, 54, rfl⟩
abbrev main_call3_cst : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_v6 : Ref sig .tc := ⟨.hbm, 62, rfl⟩
abbrev main_call3_v7 : Ref sig .tc := ⟨.hbm, 63, rfl⟩
abbrev main_call3_v8 : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_v6 : Ref sig .tc := ⟨.hbm, 68, rfl⟩
abbrev main_v7 : Ref sig .tc := ⟨.hbm, 69, rfl⟩
abbrev main_v8 : Ref sig .tc := ⟨.hbm, 70, rfl⟩
abbrev main_v9 : Ref sig .tc := ⟨.hbm, 71, rfl⟩
abbrev main_v10 : Ref sig .tc := ⟨.hbm, 72, rfl⟩
abbrev main_v11 : Ref sig .tc := ⟨.hbm, 73, rfl⟩
abbrev main_v12 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30_0 : Ref sig .tc := ⟨.hbm, 92, rfl⟩
abbrev main_v30_1 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16

abbrev nD : Nat := 1
abbrev τ : Topo := Topo.v7x

variable {F : FTy → Type} [BitOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x192x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x192x3x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x192x3x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x192x3x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x192x1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x192x3x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x192x3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x192x3x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x192x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x192x3x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x192x3x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x192x3x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x192x16x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x192x16x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

class Facts₀ : Prop where
  bcast_S_S192x3x1 : S_.BroadcastsInDim S192x3x1 (![] : Fin 0 → Fin S192x3x1.rank)
  shapeCasts_S192x3x1_S1x192x3x1 : S192x3x1.ShapeCasts S1x192x3x1
  bcast_S_S192x3x3 : S_.BroadcastsInDim S192x3x3 (![] : Fin 0 → Fin S192x3x3.rank)
  shapeCasts_S192x3x3_S1x192x3x3 : S192x3x3.ShapeCasts S1x192x3x3
  bcast_S_S192x1x3 : S_.BroadcastsInDim S192x1x3 (![] : Fin 0 → Fin S192x1x3.rank)
  shapeCasts_S192x1x3_S1x192x1x3 : S192x1x3.ShapeCasts S1x192x1x3
  shapeCasts_S192x1x1_S1x192x1x1 : S192x1x1.ShapeCasts S1x192x1x1
  slices_S3x192x3x1_S1x192x3x1_0_0_0_0 : S3x192x3x1.Slices ![0, 0, 0, 0] S1x192x3x1
  shapeCasts_S1x192x3x1_S192x3x1 : S1x192x3x1.ShapeCasts S192x3x1
  slices_S3x192x3x1_S1x192x3x1_1_0_0_0 : S3x192x3x1.Slices ![1, 0, 0, 0] S1x192x3x1
  slices_S3x192x3x1_S1x192x3x1_2_0_0_0 : S3x192x3x1.Slices ![2, 0, 0, 0] S1x192x3x1
  inb_S1x192x16x64_S1x192x16x64_0_0_0_0 : ∀ a, (![0, 0, 0, 0] : Fin 4 → Nat) a + S1x192x16x64.size a ≤ S1x192x16x64.size a
  h_S1x192x16x64 : 0 < S1x192x16x64.numel
  inb_S1x192x3x1_S1x192x3x1_0_0_0_0 : ∀ a, (![0, 0, 0, 0] : Fin 4 → Nat) a + S1x192x3x1.size a ≤ S1x192x3x1.size a
  h_S1x192x3x1 : 0 < S1x192x3x1.numel
  shapeCasts_S1x192x3x1_S1x192x3x1 : S1x192x3x1.ShapeCasts S1x192x3x1
  inb_S1x192x3x3_S1x192x3x3_0_0_0_0 : ∀ a, (![0, 0, 0, 0] : Fin 4 → Nat) a + S1x192x3x3.size a ≤ S1x192x3x3.size a
  h_S1x192x3x3 : 0 < S1x192x3x3.numel
  shapeCasts_S1x192x3x3_S1x192x3x3 : S1x192x3x3.ShapeCasts S1x192x3x3
  inb_S1x192x1x3_S1x192x1x3_0_0_0_0 : ∀ a, (![0, 0, 0, 0] : Fin 4 → Nat) a + S1x192x1x3.size a ≤ S1x192x1x3.size a
  h_S1x192x1x3 : 0 < S1x192x1x3.numel
  shapeCasts_S1x192x1x3_S1x192x1x3 : S1x192x1x3.ShapeCasts S1x192x1x3
  inb_S1x192x1x1_S1x192x1x1_0_0_0_0 : ∀ a, (![0, 0, 0, 0] : Fin 4 → Nat) a + S1x192x1x1.size a ≤ S1x192x1x1.size a
  h_S1x192x1x1 : 0 < S1x192x1x1.numel
  shapeCasts_S1x192x1x1_S1x192x1x1 : S1x192x1x1.ShapeCasts S1x192x1x1
  slices_S1x192x3x1_o0_0_0_0_S1x192x1x1 : S1x192x3x1.Slices ![0, 0, 0, 0] S1x192x1x1
  broadcasts_S1x192x1x1_S1x192x16x64 : S1x192x1x1.Broadcasts S1x192x16x64
  slices_S1x192x3x1_o0_0_1_0_S1x192x1x1 : S1x192x3x1.Slices ![0, 0, 1, 0] S1x192x1x1
  slices_S1x192x3x1_o0_0_2_0_S1x192x1x1 : S1x192x3x1.Slices ![0, 0, 2, 0] S1x192x1x1
  slices_S1x192x3x3_o0_0_0_0_S1x192x1x1 : S1x192x3x3.Slices ![0, 0, 0, 0] S1x192x1x1
  slices_S1x192x3x3_o0_0_0_1_S1x192x1x1 : S1x192x3x3.Slices ![0, 0, 0, 1] S1x192x1x1
  slices_S1x192x3x3_o0_0_0_2_S1x192x1x1 : S1x192x3x3.Slices ![0, 0, 0, 2] S1x192x1x1
  slices_S1x192x3x3_o0_0_1_0_S1x192x1x1 : S1x192x3x3.Slices ![0, 0, 1, 0] S1x192x1x1
  slices_S1x192x3x3_o0_0_1_1_S1x192x1x1 : S1x192x3x3.Slices ![0, 0, 1, 1] S1x192x1x1
  slices_S1x192x3x3_o0_0_1_2_S1x192x1x1 : S1x192x3x3.Slices ![0, 0, 1, 2] S1x192x1x1
  slices_S1x192x3x3_o0_0_2_0_S1x192x1x1 : S1x192x3x3.Slices ![0, 0, 2, 0] S1x192x1x1
  slices_S1x192x3x3_o0_0_2_1_S1x192x1x1 : S1x192x3x3.Slices ![0, 0, 2, 1] S1x192x1x1
  slices_S1x192x3x3_o0_0_2_2_S1x192x1x1 : S1x192x3x3.Slices ![0, 0, 2, 2] S1x192x1x1
  slices_S1x192x1x3_o0_0_0_0_S1x192x1x1 : S1x192x1x3.Slices ![0, 0, 0, 0] S1x192x1x1
  slices_S1x192x1x3_o0_0_0_1_S1x192x1x1 : S1x192x1x3.Slices ![0, 0, 0, 1] S1x192x1x1
  slices_S1x192x1x3_o0_0_0_2_S1x192x1x1 : S1x192x1x3.Slices ![0, 0, 0, 2] S1x192x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x192x16x64.size a ≤ S16x192x64x64.size a
  hwx0_0 : ∀ i : grid0.Coords, EltTy.bits .f32 = 32 ∨ (Rect.block (s := S16x192x64x64) S1x192x16x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x192x3x1.size a ≤ S1x192x3x1.size a
  hwx0_1 : ∀ i : grid0.Coords, EltTy.bits .f32 = 32 ∨ (Rect.block (s := S1x192x3x1) S1x192x3x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192x3x3.size a ≤ S1x192x3x3.size a
  hwx0_2 : ∀ i : grid0.Coords, EltTy.bits .f32 = 32 ∨ (Rect.block (s := S1x192x3x3) S1x192x3x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x192x3x3.size a ≤ S1x192x3x3.size a
  hwx0_3 : ∀ i : grid0.Coords, EltTy.bits .f32 = 32 ∨ (Rect.block (s := S1x192x3x3) S1x192x3x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x192x1x3.size a ≤ S1x192x1x3.size a
  hwx0_4 : ∀ i : grid0.Coords, EltTy.bits .f32 = 32 ∨ (Rect.block (s := S1x192x1x3) S1x192x1x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x192x3x1.size a ≤ S1x192x3x1.size a
  hwx0_5 : ∀ i : grid0.Coords, EltTy.bits .f32 = 32 ∨ (Rect.block (s := S1x192x3x1) S1x192x3x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x192x3x1.size a ≤ S1x192x3x1.size a
  hwx0_6 : ∀ i : grid0.Coords, EltTy.bits .f32 = 32 ∨ (Rect.block (s := S1x192x3x1) S1x192x3x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x192x3x1.size a ≤ S1x192x3x1.size a
  hwx0_7 : ∀ i : grid0.Coords, EltTy.bits .f32 = 32 ∨ (Rect.block (s := S1x192x3x1) S1x192x3x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x192x1x1.size a ≤ S1x192x1x1.size a
  hwx0_8 : ∀ i : grid0.Coords, EltTy.bits .f32 = 32 ∨ (Rect.block (s := S1x192x1x1) S1x192x1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x192x3x1.size a ≤ S1x192x3x1.size a
  hwx0_9 : ∀ i : grid0.Coords, EltTy.bits .f32 = 32 ∨ (Rect.block (s := S1x192x3x1) S1x192x3x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x192x3x1.size a ≤ S1x192x3x1.size a
  hwx0_10 : ∀ i : grid0.Coords, EltTy.bits .f32 = 32 ∨ (Rect.block (s := S1x192x3x1) S1x192x3x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x192x3x1.size a ≤ S1x192x3x1.size a
  hwx0_11 : ∀ i : grid0.Coords, EltTy.bits .f32 = 32 ∨ (Rect.block (s := S1x192x3x1) S1x192x3x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x192x16x64.size a ≤ S16x192x64x64.size a
  hwx0_12 : ∀ i : grid0.Coords, EltTy.bits .f32 = 32 ∨ (Rect.block (s := S16x192x64x64) S1x192x16x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x192x16x64.size a ≤ S16x192x64x64.size a
  hwx0_13 : ∀ i : grid0.Coords, EltTy.bits .f32 = 32 ∨ (Rect.block (s := S16x192x64x64) S1x192x16x64.size (cc0_transform_13 i) (hinb0_13 i)).WholeWords (EltTy.packing .f32)

variable [Facts₀]

abbrev win0_0 : Pipeline.Window sig grid0 :=
  Pipeline.Window.ofSpec (Memref.whole main_arg0) S1x192x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x192x3x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x192x3x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x192x3x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x192x1x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x192x3x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x192x3x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x192x3x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x192x1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1x192x3x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S1x192x3x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v29) S1x192x3x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v30_0) S1x192x16x64.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v30_1) S1x192x16x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16x192x64x64 : Shape := ⟨4, ![16, 192, 64, 64]⟩
abbrev S192x3x1 : Shape := ⟨3, ![192, 3, 1]⟩
abbrev S192x3x3 : Shape := ⟨3, ![192, 3, 3]⟩
abbrev S192x1x3 : Shape := ⟨3, ![192, 1, 3]⟩
abbrev S192x1x1 : Shape := ⟨3, ![192, 1, 1]⟩
abbrev S3x192x3x1 : Shape := ⟨4, ![3, 192, 3, 1]⟩
abbrev S192x16x64x64 : Shape := ⟨4, ![192, 16, 64, 64]⟩
abbrev S192x1x65536 : Shape := ⟨3, ![192, 1, 65536]⟩
abbrev S_ : Shape := ⟨0, ![]⟩
abbrev S192x3x65536 : Shape := ⟨3, ![192, 3, 65536]⟩
abbrev S1x192x3x1 : Shape := ⟨4, ![1, 192, 3, 1]⟩

abbrev nBuf : Space → Nat
  | .hbm => 226
  | .vmem => 0
  | .smem => 0
  | _ => 0

abbrev hbmTy0_0 (i : Nat) : BufTy := match i % 128 with
  | 0 => ⟨S16x192x64x64, .f32⟩
  | 1 => ⟨S192x3x1, .f32⟩
  | 2 => ⟨S192x3x3, .f32⟩
  | 3 => ⟨S192x3x3, .f32⟩
  | 4 => ⟨S192x1x3, .f32⟩
  | 5 => ⟨S192x3x1, .f32⟩
  | 6 => ⟨S192x3x1, .f32⟩
  | 7 => ⟨S192x3x1, .f32⟩
  | 8 => ⟨S192x1x1, .f32⟩
  | 9 => ⟨S3x192x3x1, .f32⟩
  | 10 => ⟨S192x16x64x64, .f32⟩
  | 11 => ⟨S192x1x65536, .f32⟩
  | 12 => ⟨S192x1x65536, .f32⟩
  | 13 => ⟨S_, .f32⟩
  | 14 => ⟨S192x1x65536, .f32⟩
  | 15 => ⟨S192x1x65536, .f32⟩
  | 16 => ⟨S_, .f32⟩
  | 17 => ⟨S192x3x1, .f32⟩
  | 18 => ⟨S192x3x1, .f32⟩
  | 19 => ⟨S192x3x1, .f32⟩
  | 20 => ⟨S192x3x1, .f32⟩
  | 21 => ⟨S192x3x1, .i1⟩
  | 22 => ⟨S192x3x1, .f32⟩
  | 23 => ⟨S192x3x1, .f32⟩
  | 24 => ⟨S192x3x1, .f32⟩
  | 25 => ⟨S192x3x1, .f32⟩
  | 26 => ⟨S192x3x1, .f32⟩
  | 27 => ⟨S192x3x1, .f32⟩
  | 28 => ⟨S192x3x1, .f32⟩
  | 29 => ⟨S192x3x1, .f32⟩
  | 30 => ⟨S192x3x65536, .f32⟩
  | 31 => ⟨S192x3x65536, .f32⟩
  | 32 => ⟨S192x3x65536, .f32⟩
  | 33 => ⟨S1x192x3x1, .f32⟩
  | 34 => ⟨S192x3x1, .f32⟩
  | 35 => ⟨S192x3x1, .f32⟩
  | 36 => ⟨S192x3x65536, .f32⟩
  | 37 => ⟨S192x3x65536, .f32⟩
  | 38 => ⟨S192x3x65536, .f32⟩
  | 39 => ⟨S192x3x65536, .f32⟩
  | 40 => ⟨S_, .f32⟩
  | 41 => ⟨S192x3x3, .f32⟩
  | 42 => ⟨S192x3x3, .f32⟩
  | 43 => ⟨S192x3x3, .f32⟩
  | 44 => ⟨S192x3x3, .f32⟩
  | 45 => ⟨S192x3x3, .i1⟩
  | 46 => ⟨S192x3x3, .f32⟩
  | 47 => ⟨S192x3x3, .f32⟩
  | 48 => ⟨S192x3x3, .f32⟩
  | 49 => ⟨S192x3x3, .f32⟩
  | 50 => ⟨S192x3x3, .f32⟩
  | 51 => ⟨S192x3x3, .f32⟩
  | 52 => ⟨S192x3x3, .f32⟩
  | 53 => ⟨S192x3x3, .f32⟩
  | 54 => ⟨S192x3x65536, .f32⟩
  | 55 => ⟨S192x3x65536, .f32⟩
  | 56 => ⟨S192x3x65536, .f32⟩
  | 57 => ⟨S1x192x3x1, .f32⟩
  | 58 => ⟨S192x3x1, .f32⟩
  | 59 => ⟨S192x3x1, .f32⟩
  | 60 => ⟨S192x3x65536, .f32⟩
  | 61 => ⟨S192x3x65536, .f32⟩
  | 62 => ⟨S192x3x65536, .f32⟩
  | 63 => ⟨S192x3x65536, .f32⟩
  | 64 => ⟨S_, .f32⟩
  | 65 => ⟨S192x3x3, .f32⟩
  | 66 => ⟨S192x3x3, .f32⟩
  | 67 => ⟨S192x3x3, .f32⟩
  | 68 => ⟨S192x3x3, .f32⟩
  | 69 => ⟨S192x3x3, .i1⟩
  | 70 => ⟨S192x3x3, .f32⟩
  | 71 => ⟨S192x3x3, .f32⟩
  | 72 => ⟨S192x3x3, .f32⟩
  | 73 => ⟨S192x3x3, .f32⟩
  | 74 => ⟨S192x3x3, .f32⟩
  | 75 => ⟨S192x3x3, .f32⟩
  | 76 => ⟨S192x3x3, .f32⟩
  | 77 => ⟨S192x3x3, .f32⟩
  | 78 => ⟨S192x3x65536, .f32⟩
  | 79 => ⟨S192x3x65536, .f32⟩
  | 80 => ⟨S192x3x65536, .f32⟩
  | 81 => ⟨S1x192x3x1, .f32⟩
  | 82 => ⟨S192x3x1, .f32⟩
  | 83 => ⟨S192x3x1, .f32⟩
  | 84 => ⟨S192x3x65536, .f32⟩
  | 85 => ⟨S192x3x65536, .f32⟩
  | 86 => ⟨S192x3x65536, .f32⟩
  | 87 => ⟨S192x3x65536, .f32⟩
  | 88 => ⟨S_, .f32⟩
  | 89 => ⟨S192x1x3, .f32⟩
  | 90 => ⟨S192x1x3, .f32⟩
  | 91 => ⟨S192x1x3, .f32⟩
  | 92 => ⟨S192x1x3, .f32⟩
  | 93 => ⟨S192x1x3, .i1⟩
  | 94 => ⟨S192x1x3, .f32⟩
  | 95 => ⟨S192x1x3, .f32⟩
  | 96 => ⟨S192x1x3, .f32⟩
  | 97 => ⟨S192x1x3, .f32⟩
  | 98 => ⟨S192x1x3, .f32⟩
  | 99 => ⟨S192x1x3, .f32⟩
  | 100 => ⟨S192x1x3, .f32⟩
  | 101 => ⟨S192x1x3, .f32⟩
  | 102 => ⟨S192x1x65536, .f32⟩
  | 103 => ⟨S192x1x65536, .f32⟩
  | 104 => ⟨S192x1x65536, .f32⟩
  | 105 => ⟨S_, .f32⟩
  | 106 => ⟨S192x1x65536, .f32⟩
  | 107 => ⟨S192x1x65536, .f32⟩
  | 108 => ⟨S_, .f32⟩
  | 109 => ⟨S192x3x1, .f32⟩
  | 110 => ⟨S192x3x1, .f32⟩
  | 111 => ⟨S192x3x1, .f32⟩
  | 112 => ⟨S192x3x1, .f32⟩
  | 113 => ⟨S192x3x1, .i1⟩
  | 114 => ⟨S192x3x1, .f32⟩
  | 115 => ⟨S192x3x1, .f32⟩
  | 116 => ⟨S192x3x1, .f32⟩
  | 117 => ⟨S192x3x1, .f32⟩
  | 118 => ⟨S192x3x1, .f32⟩
  | 119 => ⟨S192x3x1, .f32⟩
  | 120 => ⟨S192x3x1, .f32⟩
  | 121 => ⟨S192x3x1, .f32⟩
  | 122 => ⟨S192x3x65536, .f32⟩
  | 123 => ⟨S192x3x65536, .f32⟩
  | 124 => ⟨S192x3x65536, .f32⟩
  | 125 => ⟨S1x192x3x1, .f32⟩
  | 126 => ⟨S192x3x1, .f32⟩
  | 127 => ⟨S192x3x1, .f32⟩
  | _ => ⟨S16x192x64x64, .f32⟩

abbrev hbmTy0_1 (i : Nat) : BufTy := match i % 128 with
  | 0 => ⟨S192x3x65536, .f32⟩
  | 1 => ⟨S192x3x65536, .f32⟩
  | 2 => ⟨S192x3x65536, .f32⟩
  | 3 => ⟨S192x3x65536, .f32⟩
  | 4 => ⟨S_, .f32⟩
  | 5 => ⟨S192x3x3, .f32⟩
  | 6 => ⟨S192x3x3, .f32⟩
  | 7 => ⟨S192x3x3, .f32⟩
  | 8 => ⟨S192x3x3, .f32⟩
  | 9 => ⟨S192x3x3, .i1⟩
  | 10 => ⟨S192x3x3, .f32⟩
  | 11 => ⟨S192x3x3, .f32⟩
  | 12 => ⟨S192x3x3, .f32⟩
  | 13 => ⟨S192x3x3, .f32⟩
  | 14 => ⟨S192x3x3, .f32⟩
  | 15 => ⟨S192x3x3, .f32⟩
  | 16 => ⟨S192x3x3, .f32⟩
  | 17 => ⟨S192x3x3, .f32⟩
  | 18 => ⟨S192x3x65536, .f32⟩
  | 19 => ⟨S192x3x65536, .f32⟩
  | 20 => ⟨S192x3x65536, .f32⟩
  | 21 => ⟨S1x192x3x1, .f32⟩
  | 22 => ⟨S192x3x1, .f32⟩
  | 23 => ⟨S192x3x1, .f32⟩
  | 24 => ⟨S192x3x65536, .f32⟩
  | 25 => ⟨S192x3x65536, .f32⟩
  | 26 => ⟨S192x3x65536, .f32⟩
  | 27 => ⟨S192x3x65536, .f32⟩
  | 28 => ⟨S_, .f32⟩
  | 29 => ⟨S192x3x3, .f32⟩
  | 30 => ⟨S192x3x3, .f32⟩
  | 31 => ⟨S192x3x3, .f32⟩
  | 32 => ⟨S192x3x3, .f32⟩
  | 33 => ⟨S192x3x3, .i1⟩
  | 34 => ⟨S192x3x3, .f32⟩
  | 35 => ⟨S192x3x3, .f32⟩
  | 36 => ⟨S192x3x3, .f32⟩
  | 37 => ⟨S192x3x3, .f32⟩
  | 38 => ⟨S192x3x3, .f32⟩
  | 39 => ⟨S192x3x3, .f32⟩
  | 40 => ⟨S192x3x3, .f32⟩
  | 41 => ⟨S192x3x3, .f32⟩
  | 42 => ⟨S192x3x65536, .f32⟩
  | 43 => ⟨S192x3x65536, .f32⟩
  | 44 => ⟨S192x3x65536, .f32⟩
  | 45 => ⟨S1x192x3x1, .f32⟩
  | 46 => ⟨S192x3x1, .f32⟩
  | 47 => ⟨S192x3x1, .f32⟩
  | 48 => ⟨S192x3x65536, .f32⟩
  | 49 => ⟨S192x3x65536, .f32⟩
  | 50 => ⟨S192x3x65536, .f32⟩
  | 51 => ⟨S192x3x65536, .f32⟩
  | 52 => ⟨S_, .f32⟩
  | 53 => ⟨S192x1x3, .f32⟩
  | 54 => ⟨S192x1x3, .f32⟩
  | 55 => ⟨S192x1x3, .f32⟩
  | 56 => ⟨S192x1x3, .f32⟩
  | 57 => ⟨S192x1x3, .i1⟩
  | 58 => ⟨S192x1x3, .f32⟩
  | 59 => ⟨S192x1x3, .f32⟩
  | 60 => ⟨S192x1x3, .f32⟩
  | 61 => ⟨S192x1x3, .f32⟩
  | 62 => ⟨S192x1x3, .f32⟩
  | 63 => ⟨S192x1x3, .f32⟩
  | 64 => ⟨S192x1x3, .f32⟩
  | 65 => ⟨S192x1x3, .f32⟩
  | 66 => ⟨S192x1x65536, .f32⟩
  | 67 => ⟨S192x1x65536, .f32⟩
  | 68 => ⟨S192x1x65536, .f32⟩
  | 69 => ⟨S192x1x65536, .f32⟩
  | 70 => ⟨S192x1x65536, .f32⟩
  | 71 => ⟨S192x1x65536, .f32⟩
  | 72 => ⟨S192x1x65536, .f32⟩
  | 73 => ⟨S192x1x65536, .f32⟩
  | 74 => ⟨S_, .f32⟩
  | 75 => ⟨S192x1x65536, .f32⟩
  | 76 => ⟨S192x1x65536, .f32⟩
  | 77 => ⟨S_, .f32⟩
  | 78 => ⟨S192x1x65536, .f32⟩
  | 79 => ⟨S192x1x65536, .f32⟩
  | 80 => ⟨S192x1x65536, .f32⟩
  | 81 => ⟨S192x1x65536, .f32⟩
  | 82 => ⟨S192x1x65536, .f32⟩
  | 83 => ⟨S_, .f32⟩
  | 84 => ⟨S192x1x65536, .f32⟩
  | 85 => ⟨S192x1x65536, .f32⟩
  | 86 => ⟨S_, .f32⟩
  | 87 => ⟨S192x1x65536, .f32⟩
  | 88 => ⟨S192x1x65536, .f32⟩
  | 89 => ⟨S192x1x65536, .f32⟩
  | 90 => ⟨S192x1x65536, .f32⟩
  | 91 => ⟨S_, .f32⟩
  | 92 => ⟨S192x1x65536, .f32⟩
  | 93 => ⟨S192x1x65536, .f32⟩
  | 94 => ⟨S192x16x64x64, .f32⟩
  | 95 => ⟨S16x192x64x64, .f32⟩
  | 96 => ⟨S192x16x64x64, .f32⟩
  | 97 => ⟨S16x192x64x64, .f32⟩
  | _ => ⟨S16x192x64x64, .f32⟩

abbrev hbmTy (i : Nat) : BufTy := match i / 128 with
  | 0 => hbmTy0_0 i
  | 1 => hbmTy0_1 i
  | _ => ⟨S16x192x64x64, .f32⟩

abbrev bufTy : (tb : Table) → Fin (tcTables nBuf tb) → BufTy
  | .hbm, ⟨i, _⟩ => hbmTy i
  | _, _ => ⟨S16x192x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_call1_cst : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_call2_cst : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_call3_cst : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_v6 : Ref sig .tc := ⟨.hbm, 71, rfl⟩
abbrev main_call3_v7 : Ref sig .tc := ⟨.hbm, 72, rfl⟩
abbrev main_call3_v8 : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_call4_cst : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_call4_v5 : Ref sig .tc := ⟨.hbm, 94, rfl⟩
abbrev main_call4_v6 : Ref sig .tc := ⟨.hbm, 95, rfl⟩
abbrev main_call4_v7 : Ref sig .tc := ⟨.hbm, 96, rfl⟩
abbrev main_call4_v8 : Ref sig .tc := ⟨.hbm, 97, rfl⟩
abbrev main_call4_v9 : Ref sig .tc := ⟨.hbm, 98, rfl⟩
abbrev main_call4_v10 : Ref sig .tc := ⟨.hbm, 99, rfl⟩
abbrev main_call4_v11 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_cst_0 : Ref sig .tc := ⟨.hbm, 105, rfl⟩
abbrev main_v42 : Ref sig .tc := ⟨.hbm, 106, rfl⟩
abbrev main_v43 : Ref sig .tc := ⟨.hbm, 107, rfl⟩
abbrev main_call5_cst : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_v5 : Ref sig .tc := ⟨.hbm, 114, rfl⟩
abbrev main_call5_v6 : Ref sig .tc := ⟨.hbm, 115, rfl⟩
abbrev main_call5_v7 : Ref sig .tc := ⟨.hbm, 116, rfl⟩
abbrev main_call5_v8 : Ref sig .tc := ⟨.hbm, 117, rfl⟩
abbrev main_call5_v9 : Ref sig .tc := ⟨.hbm, 118, rfl⟩
abbrev main_call5_v10 : Ref sig .tc := ⟨.hbm, 119, rfl⟩
abbrev main_call5_v11 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_call6_cst : Ref sig .tc := ⟨.hbm, 132, rfl⟩
abbrev main_call6_v0 : Ref sig .tc := ⟨.hbm, 133, rfl⟩
abbrev main_call6_v1 : Ref sig .tc := ⟨.hbm, 134, rfl⟩
abbrev main_call6_v2 : Ref sig .tc := ⟨.hbm, 135, rfl⟩
abbrev main_call6_v3 : Ref sig .tc := ⟨.hbm, 136, rfl⟩
abbrev main_call6_v4 : Ref sig .tc := ⟨.hbm, 137, rfl⟩
abbrev main_call6_v5 : Ref sig .tc := ⟨.hbm, 138, rfl⟩
abbrev main_call6_v6 : Ref sig .tc := ⟨.hbm, 139, rfl⟩
abbrev main_call6_v7 : Ref sig .tc := ⟨.hbm, 140, rfl⟩
abbrev main_call6_v8 : Ref sig .tc := ⟨.hbm, 141, rfl⟩
abbrev main_call6_v9 : Ref sig .tc := ⟨.hbm, 142, rfl⟩
abbrev main_call6_v10 : Ref sig .tc := ⟨.hbm, 143, rfl⟩
abbrev main_call6_v11 : Ref sig .tc := ⟨.hbm, 144, rfl⟩
abbrev main_v55 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_call7_cst : Ref sig .tc := ⟨.hbm, 156, rfl⟩
abbrev main_call7_v0 : Ref sig .tc := ⟨.hbm, 157, rfl⟩
abbrev main_call7_v1 : Ref sig .tc := ⟨.hbm, 158, rfl⟩
abbrev main_call7_v2 : Ref sig .tc := ⟨.hbm, 159, rfl⟩
abbrev main_call7_v3 : Ref sig .tc := ⟨.hbm, 160, rfl⟩
abbrev main_call7_v4 : Ref sig .tc := ⟨.hbm, 161, rfl⟩
abbrev main_call7_v5 : Ref sig .tc := ⟨.hbm, 162, rfl⟩
abbrev main_call7_v6 : Ref sig .tc := ⟨.hbm, 163, rfl⟩
abbrev main_call7_v7 : Ref sig .tc := ⟨.hbm, 164, rfl⟩
abbrev main_call7_v8 : Ref sig .tc := ⟨.hbm, 165, rfl⟩
abbrev main_call7_v9 : Ref sig .tc := ⟨.hbm, 166, rfl⟩
abbrev main_call7_v10 : Ref sig .tc := ⟨.hbm, 167, rfl⟩
abbrev main_call7_v11 : Ref sig .tc := ⟨.hbm, 168, rfl⟩
abbrev main_v66 : Ref sig .tc := ⟨.hbm, 169, rfl⟩
abbrev main_v67 : Ref sig .tc := ⟨.hbm, 170, rfl⟩
abbrev main_v68 : Ref sig .tc := ⟨.hbm, 171, rfl⟩
abbrev main_v69 : Ref sig .tc := ⟨.hbm, 172, rfl⟩
abbrev main_v70 : Ref sig .tc := ⟨.hbm, 173, rfl⟩
abbrev main_v71 : Ref sig .tc := ⟨.hbm, 174, rfl⟩
abbrev main_v72 : Ref sig .tc := ⟨.hbm, 175, rfl⟩
abbrev main_v73 : Ref sig .tc := ⟨.hbm, 176, rfl⟩
abbrev main_v74 : Ref sig .tc := ⟨.hbm, 177, rfl⟩
abbrev main_v75 : Ref sig .tc := ⟨.hbm, 178, rfl⟩
abbrev main_v76 : Ref sig .tc := ⟨.hbm, 179, rfl⟩
abbrev main_call8_cst : Ref sig .tc := ⟨.hbm, 180, rfl⟩
abbrev main_call8_v0 : Ref sig .tc := ⟨.hbm, 181, rfl⟩
abbrev main_call8_v1 : Ref sig .tc := ⟨.hbm, 182, rfl⟩
abbrev main_call8_v2 : Ref sig .tc := ⟨.hbm, 183, rfl⟩
abbrev main_call8_v3 : Ref sig .tc := ⟨.hbm, 184, rfl⟩
abbrev main_call8_v4 : Ref sig .tc := ⟨.hbm, 185, rfl⟩
abbrev main_call8_v5 : Ref sig .tc := ⟨.hbm, 186, rfl⟩
abbrev main_call8_v6 : Ref sig .tc := ⟨.hbm, 187, rfl⟩
abbrev main_call8_v7 : Ref sig .tc := ⟨.hbm, 188, rfl⟩
abbrev main_call8_v8 : Ref sig .tc := ⟨.hbm, 189, rfl⟩
abbrev main_call8_v9 : Ref sig .tc := ⟨.hbm, 190, rfl⟩
abbrev main_call8_v10 : Ref sig .tc := ⟨.hbm, 191, rfl⟩
abbrev main_call8_v11 : Ref sig .tc := ⟨.hbm, 192, rfl⟩
abbrev main_v77 : Ref sig .tc := ⟨.hbm, 193, rfl⟩
abbrev main_v78 : Ref sig .tc := ⟨.hbm, 194, rfl⟩
abbrev main_v79 : Ref sig .tc := ⟨.hbm, 195, rfl⟩
abbrev main_v80 : Ref sig .tc := ⟨.hbm, 196, rfl⟩
abbrev main_v81 : Ref sig .tc := ⟨.hbm, 197, rfl⟩
abbrev main_v82 : Ref sig .tc := ⟨.hbm, 198, rfl⟩
abbrev main_v83 : Ref sig .tc := ⟨.hbm, 199, rfl⟩
abbrev main_v84 : Ref sig .tc := ⟨.hbm, 200, rfl⟩
abbrev main_v85 : Ref sig .tc := ⟨.hbm, 201, rfl⟩
abbrev main_cst_1 : Ref sig .tc := ⟨.hbm, 202, rfl⟩
abbrev main_v86 : Ref sig .tc := ⟨.hbm, 203, rfl⟩
abbrev main_v87 : Ref sig .tc := ⟨.hbm, 204, rfl⟩
abbrev main_cst_2 : Ref sig .tc := ⟨.hbm, 205, rfl⟩
abbrev main_v88 : Ref sig .tc := ⟨.hbm, 206, rfl⟩
abbrev main_v89 : Ref sig .tc := ⟨.hbm, 207, rfl⟩
abbrev main_v90 : Ref sig .tc := ⟨.hbm, 208, rfl⟩
abbrev main_v91 : Ref sig .tc := ⟨.hbm, 209, rfl⟩
abbrev main_v92 : Ref sig .tc := ⟨.hbm, 210, rfl⟩
abbrev main_cst_3 : Ref sig .tc := ⟨.hbm, 211, rfl⟩
abbrev main_v93 : Ref sig .tc := ⟨.hbm, 212, rfl⟩
abbrev main_v94 : Ref sig .tc := ⟨.hbm, 213, rfl⟩
abbrev main_cst_4 : Ref sig .tc := ⟨.hbm, 214, rfl⟩
abbrev main_v95 : Ref sig .tc := ⟨.hbm, 215, rfl⟩
abbrev main_v96 : Ref sig .tc := ⟨.hbm, 216, rfl⟩
abbrev main_v97 : Ref sig .tc := ⟨.hbm, 217, rfl⟩
abbrev main_v98 : Ref sig .tc := ⟨.hbm, 218, rfl⟩
abbrev main_cst_5 : Ref sig .tc := ⟨.hbm, 219, rfl⟩
abbrev main_v99 : Ref sig .tc := ⟨.hbm, 220, rfl⟩
abbrev main_v100 : Ref sig .tc := ⟨.hbm, 221, rfl⟩
abbrev main_v101 : Ref sig .tc := ⟨.hbm, 222, rfl⟩
abbrev main_v102 : Ref sig .tc := ⟨.hbm, 223, rfl⟩
abbrev main_v103 : Ref sig .tc := ⟨.hbm, 224, rfl⟩
abbrev main_v104 : Ref sig .tc := ⟨.hbm, 225, rfl⟩

abbrev nD : Nat := 1
abbrev τ : Topo := Topo.v7x

variable {F : FTy → Type} [FloatOps F]

class Facts₀ : Prop where
  transposes_S16x192x64x64_S192x16x64x64_1_0_2_3 : S16x192x64x64.Transposes [1, 0, 2, 3] S192x16x64x64
  shapeCasts_S192x16x64x64_S192x1x65536 : S192x16x64x64.ShapeCasts S192x1x65536
  bcast_S_S192x1x65536 : S_.BroadcastsInDim S192x1x65536 (![] : Fin 0 → Fin S192x1x65536.rank)
  bcast_S_S192x3x1 : S_.BroadcastsInDim S192x3x1 (![] : Fin 0 → Fin S192x3x1.rank)
  bcast_S192x3x1_S192x3x65536_0_1_2 : S192x3x1.BroadcastsInDim S192x3x65536 (![0, 1, 2] : Fin 3 → Fin S192x3x65536.rank)
  slices_S3x192x3x1_S1x192x3x1_0_0_0_0 : S3x192x3x1.Slices ![0, 0, 0, 0] S1x192x3x1
  shapeCasts_S1x192x3x1_S192x3x1 : S1x192x3x1.ShapeCasts S192x3x1
  bcast_S_S192x3x3 : S_.BroadcastsInDim S192x3x3 (![] : Fin 0 → Fin S192x3x3.rank)
  slices_S3x192x3x1_S1x192x3x1_1_0_0_0 : S3x192x3x1.Slices ![1, 0, 0, 0] S1x192x3x1
  slices_S3x192x3x1_S1x192x3x1_2_0_0_0 : S3x192x3x1.Slices ![2, 0, 0, 0] S1x192x3x1
  bcast_S_S192x1x3 : S_.BroadcastsInDim S192x1x3 (![] : Fin 0 → Fin S192x1x3.rank)
  bcast_S192x1x1_S192x1x65536_0_1_2 : S192x1x1.BroadcastsInDim S192x1x65536 (![0, 1, 2] : Fin 3 → Fin S192x1x65536.rank)
  shapeCasts_S192x1x65536_S192x16x64x64 : S192x1x65536.ShapeCasts S192x16x64x64
  transposes_S192x16x64x64_S16x192x64x64_1_0_2_3 : S192x16x64x64.Transposes [1, 0, 2, 3] S16x192x64x64
  dot_S192x3x1_S192x1x65536_S192x3x65536_2_1_1_2_0_0_wf : DotDims.WF S192x3x1 S192x1x65536 S192x3x65536 [2] [1] [1] [2] [0] [0]
  dot_S192x3x3_S192x3x65536_S192x3x65536_2_1_1_2_0_0_wf : DotDims.WF S192x3x3 S192x3x65536 S192x3x65536 [2] [1] [1] [2] [0] [0]
  dot_S192x1x3_S192x3x65536_S192x1x65536_2_1_1_2_0_0_wf : DotDims.WF S192x1x3 S192x3x65536 S192x1x65536 [2] [1] [1] [2] [0] [0]

variable [Facts₀]

def dot_S192x3x1_S192x1x65536_S192x3x65536_2_1_1_2_0_0 : DotDims S192x3x1 S192x1x65536 S192x3x65536 where
  lhsContracting := [2]
  rhsContracting := [1]
  lhsNonContracting := [1]
  rhsNonContracting := [2]
  lhsBatch := [0]
  rhsBatch := [0]
  wf := dot_S192x3x1_S192x1x65536_S192x3x65536_2_1_1_2_0_0_wf
def dot_S192x3x3_S192x3x65536_S192x3x65536_2_1_1_2_0_0 : DotDims S192x3x3 S192x3x65536 S192x3x65536 where
  lhsContracting := [2]
  rhsContracting := [1]
  lhsNonContracting := [1]
  rhsNonContracting := [2]
  lhsBatch := [0]
  rhsBatch := [0]
  wf := dot_S192x3x3_S192x3x65536_S192x3x65536_2_1_1_2_0_0_wf
def dot_S192x1x3_S192x3x65536_S192x1x65536_2_1_1_2_0_0 : DotDims S192x1x3 S192x3x65536 S192x1x65536 where
  lhsContracting := [2]
  rhsContracting := [1]
  lhsNonContracting := [1]
  rhsNonContracting := [2]
  lhsBatch := [0]
  rhsBatch := [0]
  wf := dot_S192x1x3_S192x3x65536_S192x1x65536_2_1_1_2_0_0_wf

class Facts : Prop extends Facts₀ where

variable [Facts]
-- ==== Proof.Spec.lean ====
/-
  The factorized entropy model, element by element, on the extended reals.

  For one element `x` of channel `c` the model quantizes, `q = round x` (ties to even), runs the two
  arguments `q - 1/2` and `q + 1/2` through the channel's little monotone network

      l⁰_j = g(T⁰_j, M⁰_j · v + B⁰_j)                                   (j < 3)
      l¹_j = g(T¹_j, M¹_j0 · l⁰_0 + M¹_j1 · l⁰_1 + M¹_j2 · l⁰_2 + B¹_j)    (j < 3)
      l²_j = g(T²_j, M²_j0 · l¹_0 + M²_j1 · l¹_1 + M²_j2 · l¹_2 + B²_j)    (j < 3)
      l³   = M³_0 · l²_0 + M³_1 · l²_1 + M³_2 · l²_2 + B³

  with the gate `g(t, s) = s + t · tanh s`, and returns the likelihood

      max (|σ(s · up) - σ(s · lo)|, bound),     s = sign (lo + up),   σ the logistic function,

  `lo`, `up` the two outputs. The matrices `M` are already the softplus of the raw parameters and the gate
  factors `T` already the tanh of the raw factors: both programs compute those on the host, by the same
  operations (see `softplus` below), before the network runs.

  Everything here is stated for arbitrary extended reals: the sums are written in ONE association
  (left to right) and the only law a program needs to meet it is that a sum over `Fin 3` (or `Fin 1`) is
  that left-to-right sum, which holds in any additive commutative monoid — no finiteness is used.
-/
import Idealize.ShloMosaic.PureOps.Ideal.Laws
import Mathlib.Algebra.BigOperators.Fin

noncomputable section

namespace Cert.Entropy

open Idealize.ShloMosaic

/-- The gate `s + t · tanh s`. -/
def gate (t s : EReal) : EReal := s + t * Ideal.tanh s

/-- The first layer: one input, three gated outputs. -/
def lay0 (M B T : Fin 3 → EReal) (v : EReal) : Fin 3 → EReal :=
  fun j => gate (T j) (M j * v + B j)

/-- A middle layer: three inputs, three gated outputs; the sum left to right, the bias last. -/
def lay (M : Fin 3 → Fin 3 → EReal) (B T : Fin 3 → EReal) (l : Fin 3 → EReal) : Fin 3 → EReal :=
  fun j => gate (T j) (M j 0 * l 0 + M j 1 * l 1 + M j 2 * l 2 + B j)

/-- The last layer: three inputs, one output, no gate. -/
def lay3 (M : Fin 3 → EReal) (B : EReal) (l : Fin 3 → EReal) : EReal :=
  M 0 * l 0 + M 1 * l 1 + M 2 * l 2 + B

/-- One channel's parameters as the network uses them: softplus already applied to the matrices, tanh to
    the gate factors. -/
structure Params where
  M0 : Fin 3 → EReal
  M1 : Fin 3 → Fin 3 → EReal
  M2 : Fin 3 → Fin 3 → EReal
  M3 : Fin 3 → EReal
  B0 : Fin 3 → EReal
  B1 : Fin 3 → EReal
  B2 : Fin 3 → EReal
  B3 : EReal
  T0 : Fin 3 → EReal
  T1 : Fin 3 → EReal
  T2 : Fin 3 → EReal

/-- The network's output (the cumulative logit) at the argument `v`. -/
def logits (P : Params) (v : EReal) : EReal :=
  lay3 P.M3 P.B3 (lay P.M2 P.B2 P.T2 (lay P.M1 P.B1 P.T1 (lay0 P.M0 P.B0 P.T0 v)))

/-- `1/2`, as both programs spell it (the same f32 word on both sides: never evaluated). -/
def half : EReal := Ideal.ofBits .f32 0x3F000000#32

/-- The likelihood's lower bound `1e-9`, as both programs spell it (the same f32 word). -/
def bound : EReal := Ideal.ofBits .f32 0x3089705F#32

/-- The quantized value: round to nearest, ties to even. -/
def quant (x : EReal) : EReal := Ideal.liftRound Ideal.roundHalfEven x

/-- The likelihood of the element `x` under the channel's parameters. -/
def lik (P : Params) (x : EReal) : EReal :=
  max (max (Ideal.logistic (Ideal.sign (logits P (quant x - half) + logits P (quant x + half)) * logits P (quant x + half))
            - Ideal.logistic (Ideal.sign (logits P (quant x - half) + logits P (quant x + half)) * logits P (quant x - half)))
          (-(Ideal.logistic (Ideal.sign (logits P (quant x - half) + logits P (quant x + half)) * logits P (quant x + half))
            - Ideal.logistic (Ideal.sign (logits P (quant x - half) + logits P (quant x + half)) * logits P (quant x - half)))))
      bound

/-- jax's softplus, `max(a, 0) + log1p(exp(-|a|))` behind a guard `a - 0 ≠ a - 0` that never fires on the
    extended reals, operation by operation as both programs' host code spells it. It is applied to equal
    arguments on both sides, so it is never opened. -/
def softplus (a : EReal) : EReal :=
  Scalar.select (Ideal.cmp .une (a - Ideal.ofBits .f32 0x00000000#32) (a - Ideal.ofBits .f32 0x00000000#32))
    (a + Ideal.ofBits .f32 0x00000000#32)
    (max a (Ideal.ofBits .f32 0x00000000#32)
      + Ideal.log1p (Ideal.exp (-(max (a - Ideal.ofBits .f32 0x00000000#32) (-(a - Ideal.ofBits .f32 0x00000000#32))))))

/-- A sum of three terms over `Fin 3` is the left-to-right sum. -/
theorem sum3 (f : Fin 3 → EReal) : ∑ k : Fin 3, f k = f 0 + f 1 + f 2 := Fin.sum_univ_three f

/-- A sum of one term over `Fin 1` is the term. -/
theorem sum1 (f : Fin 1 → EReal) : ∑ k : Fin 1, f k = f 0 := Fin.sum_univ_one f

end Cert.Entropy

end
-- ==== Proof.LayoutRead.lean ====
/-
  A per-channel scalar of a parameter block, spread over a block of activations, read at an index.

  The kernel takes one entry `(j, k)` of a channel's small matrix — a unit slice [1, 192, 1, 1] of the
  parameter block [1, 192, a, b] at offsets (0, 0, j, k) — and broadcasts it over the activation block
  [1, 192, 16, 64]. Read at the activation index (0, c, h, w) that is the parameter block's entry
  (0, c, j, k): the broadcast forgets h and w (`bcast11`), the slice shifts by its offsets (`sl33`, `sl31`,
  `sl13`: one statement per parameter shape, for any offsets the slice admits — that the offsets are in
  range is part of the slice's own side condition).
-/
import Idealize.ShloMosaic.Lib.ValueIdx
import Idealize.ShloMosaic.Lib.Pipeline.Value

noncomputable section

namespace Cert.Entropy

open Idealize.ShloMosaic Idealize.ShloMosaic.ValueIdx

/-- The activation block: one batch row, all channels, 16 image rows, 64 columns. -/
abbrev SB : Shape := ⟨4, ![1, 192, 16, 64]⟩
/-- Parameter blocks: 3×1, 3×3, 1×3 and 1×1 per channel. -/
abbrev S31 : Shape := ⟨4, ![1, 192, 3, 1]⟩
abbrev S33 : Shape := ⟨4, ![1, 192, 3, 3]⟩
abbrev S13 : Shape := ⟨4, ![1, 192, 1, 3]⟩
abbrev S11 : Shape := ⟨4, ![1, 192, 1, 1]⟩

/-- A [1,192,1,1] block broadcast over the activation block, read at (0, c, h, w), is its entry (0, c, 0, 0). -/
theorem bcast11 {α : Type} (v : S11.Idx → α) (hb : S11.Broadcasts SB) (c : Fin 192) (h : Fin 16) (w : Fin 64) :
    broadcastTo SB v hb (ix4 0 c h w) = v (ix4 0 c 0 0) := by
  refine broadcastTo_apply _ hb (ix4 0 c h w) (ix4 0 c 0 0) ?_
  intro a
  match a with
  | ⟨0, _⟩ => rfl
  | ⟨1, _⟩ => rfl
  | ⟨2, _⟩ => rfl
  | ⟨3, _⟩ => rfl

/-- The row offset of a unit slice of a 3×3 block is below 3. -/
theorem row33 {j k : Nat} (hs : S33.Slices ![0, 0, j, k] S11) : j < 3 := by
  have h : j + 1 ≤ 3 := hs.2 (2 : Fin 4)
  omega

/-- The column offset of a unit slice of a 3×3 block is below 3. -/
theorem col33 {j k : Nat} (hs : S33.Slices ![0, 0, j, k] S11) : k < 3 := by
  have h : k + 1 ≤ 3 := hs.2 (3 : Fin 4)
  omega

/-- The unit slice of a 3×3 parameter block at offsets (0, 0, j, k), read at (0, c, 0, 0), is entry (j, k). -/
theorem sl33 {α : Type} (v : S33.Idx → α) (j k : Nat) (hs : S33.Slices ![0, 0, j, k] S11) (c : Fin 192) :
    extractStridedSlice S11 ![0, 0, j, k] v hs (ix4 0 c 0 0) = v (ix4 0 c ⟨j, row33 hs⟩ ⟨k, col33 hs⟩) := by
  refine extractStridedSlice_apply _ v hs _ _ ?_
  intro a
  match a with
  | ⟨0, _⟩ => rfl
  | ⟨1, _⟩ => show c.val = 0 + c.val; omega
  | ⟨2, _⟩ => show j = j + 0; omega
  | ⟨3, _⟩ => show k = k + 0; omega

/-- The row offset of a unit slice of a 3×1 block is below 3. -/
theorem row31 {j : Nat} (hs : S31.Slices ![0, 0, j, 0] S11) : j < 3 := by
  have h : j + 1 ≤ 3 := hs.2 (2 : Fin 4)
  omega

/-- The unit slice of a 3×1 parameter block at offsets (0, 0, j, 0), read at (0, c, 0, 0), is entry (j, 0). -/
theorem sl31 {α : Type} (v : S31.Idx → α) (j : Nat) (hs : S31.Slices ![0, 0, j, 0] S11) (c : Fin 192) :
    extractStridedSlice S11 ![0, 0, j, 0] v hs (ix4 0 c 0 0) = v (ix4 0 c ⟨j, row31 hs⟩ 0) := by
  refine extractStridedSlice_apply _ v hs _ _ ?_
  intro a
  match a with
  | ⟨0, _⟩ => rfl
  | ⟨1, _⟩ => show c.val = 0 + c.val; omega
  | ⟨2, _⟩ => show j = j + 0; omega
  | ⟨3, _⟩ => rfl

/-- The column offset of a unit slice of a 1×3 block is below 3. -/
theorem col13 {k : Nat} (hs : S13.Slices ![0, 0, 0, k] S11) : k < 3 := by
  have h : k + 1 ≤ 3 := hs.2 (3 : Fin 4)
  omega

/-- The unit slice of a 1×3 parameter block at offsets (0, 0, 0, k), read at (0, c, 0, 0), is entry (0, k). -/
theorem sl13 {α : Type} (v : S13.Idx → α) (k : Nat) (hs : S13.Slices ![0, 0, 0, k] S11) (c : Fin 192) :
    extractStridedSlice S11 ![0, 0, 0, k] v hs (ix4 0 c 0 0) = v (ix4 0 c 0 ⟨k, col13 hs⟩) := by
  refine extractStridedSlice_apply _ v hs _ _ ?_
  intro a
  match a with
  | ⟨0, _⟩ => rfl
  | ⟨1, _⟩ => show c.val = 0 + c.val; omega
  | ⟨2, _⟩ => rfl
  | ⟨3, _⟩ => show k = k + 0; omega

/-- The three positions of an axis of extent 3, whichever proof of the bound they carry. -/
theorem pos0 (h : 0 < 3) : (⟨0, h⟩ : Fin 3) = 0 := rfl
theorem pos1 (h : 1 < 3) : (⟨1, h⟩ : Fin 3) = 1 := rfl
theorem pos2 (h : 2 < 3) : (⟨2, h⟩ : Fin 3) = 2 := rfl

end Cert.Entropy

end
-- ==== Proof.KernelPay.lean ====
/-
  What one launch of the kernel body leaves in the likelihood block, element by element.

  The body loads the activation block `x` [1, 192, 16, 64] and eleven per-channel parameter blocks, and
  stores `round x` and the likelihood. Every operation of the body is either pointwise on the activation
  block or the spreading of one per-channel parameter entry over it (a unit slice followed by a broadcast,
  `LayoutRead`), so the stored likelihood at (0, c, h, w) is the scalar function `lik` (`Spec`) of `x` at
  that index and of channel `c`'s entries of the parameter blocks. The kernel accumulates each layer's
  sum left to right and adds the bias last, which is the association `Spec` writes, so no law of the
  extended reals is needed here beyond reading each operation at the index; its `sign` is the library's
  reading of the select-on-sign-bit term as the order's sign.
-/
import proofs.«107735_j82557861363977_2_alg».proof.Proof.Gen.KernelIdeal.Frame
import proofs.«107735_j82557861363977_2_alg».proof.Proof.Spec
import proofs.«107735_j82557861363977_2_alg».proof.Proof.LayoutRead
import Idealize.ShloMosaic.Lib.ValueIdx
import Idealize.ShloMosaic.Lib.Pipeline.Value
import Idealize.ShloMosaic.PureOps.Ideal.Laws

noncomputable section

namespace Cert.Entropy

open Idealize.ShloMosaic Idealize.ShloMosaic.ValueIdx
open Cert.KernelIdeal Cert.KernelIdeal.Gen

/-! ## Pointwise operations the library has no index lemma for -/

theorem tanh_apply {s : Shape} (a : FVec Ideal s .f32) (i : s.Idx) : tanh a i = Ideal.tanh (a i) := rfl
theorem logistic_apply {s : Shape} (a : FVec Ideal s .f32) (i : s.Idx) : logistic a i = Ideal.logistic (a i) := rfl
theorem roundeven_apply {s : Shape} (a : FVec Ideal s .f32) (i : s.Idx) : roundeven a i = quant (a i) := rfl
theorem absf_apply {s : Shape} (a : FVec Ideal s .f32) (i : s.Idx) : absf a i = max (a i) (-(a i)) := rfl
theorem scalar_ofBits (b : BitVec 32) : (Scalar.ofBits .f32 b : Ideal .f32) = Ideal.ofBits .f32 b := rfl

/-- One channel's parameters as the body's eleven parameter blocks hold them. -/
def blockParams (x1 : S31.Idx → EReal) (x2 x3 : S33.Idx → EReal) (x4 : S13.Idx → EReal) (x5 x6 x7 : S31.Idx → EReal)
    (x8 : S11.Idx → EReal) (x9 x10 x11 : S31.Idx → EReal) (c : Fin 192) : Params where
  M0 := fun j => x1 (ix4 0 c j 0)
  M1 := fun j k => x2 (ix4 0 c j k)
  M2 := fun j k => x3 (ix4 0 c j k)
  M3 := fun k => x4 (ix4 0 c 0 k)
  B0 := fun j => x5 (ix4 0 c j 0)
  B1 := fun j => x6 (ix4 0 c j 0)
  B2 := fun j => x7 (ix4 0 c j 0)
  B3 := x8 (ix4 0 c 0 0)
  T0 := fun j => x9 (ix4 0 c j 0)
  T1 := fun j => x10 (ix4 0 c j 0)
  T2 := fun j => x11 (ix4 0 c j 0)

theorem hz4 : (![0, 0, 0, 0] : Fin 4 → Nat) = fun _ => 0 := funext fun a => by fin_cases a <;> rfl

/-- The sign the body computes — the argument where it is zero, otherwise ±1 by a comparison with zero — is
    the order's sign of the sum of the two logits. -/
theorem pay40_eq (v8 : FVec Ideal S1x192x3x3 .f32) (v10 : FVec Ideal S1x192x1x3 .f32) (v16 : FVec Ideal S1x192x3x1 .f32)
    (v18 : FVec Ideal S1x192x1x1 .f32) (v24 : FVec Ideal S1x192x3x1 .f32)
    (v186 v268 v273 v278 v292 v299 v302 : FVec Ideal S1x192x16x64 .f32) (i : S1x192x16x64.Idx) :
    k0_pay40 v8 v10 v16 v18 v24 v186 v268 v273 v278 v292 v299 v302 i
      = Ideal.sign (v186 i + k0_pay39 v8 v10 v16 v18 v24 v268 v273 v278 v292 v299 v302 i) :=
  Ideal.jnp_sign_eq_sign_f32 _

set_option maxRecDepth 65536 in
set_option maxHeartbeats 4000000 in
/-- The likelihood block after the body, at (0, c, h, w): `lik` of channel `c`'s parameters and of `x` there. -/
theorem out13_apply (x0 : Vec Ideal S1x192x16x64 .f32) (x1 : Vec Ideal S1x192x3x1 .f32) (x2 x3 : Vec Ideal S1x192x3x3 .f32)
    (x4 : Vec Ideal S1x192x1x3 .f32) (x5 x6 x7 : Vec Ideal S1x192x3x1 .f32) (x8 : Vec Ideal S1x192x1x1 .f32)
    (x9 x10 x11 : Vec Ideal S1x192x3x1 .f32) (c : Fin 192) (h : Fin 16) (w : Fin 64) :
    out0_13 x0 x1 x2 x3 x4 x5 x6 x7 x8 x9 x10 x11 (ix4 0 c h w)
      = lik (blockParams x1 x2 x3 x4 x5 x6 x7 x8 x9 x10 x11 c) (x0 (ix4 0 c h w)) := by
  unfold out0_13
  rw [View.canon_unit_zero hz4]
  simp only [View.ld_unit_zero (S := S1x192x16x64) hz4, View.ld_unit_zero (S := S1x192x3x1) hz4,
    View.ld_unit_zero (S := S1x192x3x3) hz4, View.ld_unit_zero (S := S1x192x1x3) hz4,
    View.ld_unit_zero (S := S1x192x1x1) hz4]
  simp only [k0_pay1, k0_pay2, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20, k0_pay21, k0_pay22,
    k0_pay23, k0_pay24, k0_pay25, k0_pay26, k0_pay27, k0_pay28, k0_pay29, k0_pay30, k0_pay31, k0_pay32, k0_pay33,
    k0_pay34, k0_pay35, k0_pay36, k0_pay37, k0_pay38, k0_pay39, k0_pay41, k0_pay42, pay40_eq,
    shapeCast_self, mulf_apply, addf_apply, subf_apply, maximumf_apply, broadcast_apply, tanh_apply, logistic_apply,
    roundeven_apply, absf_apply, scalar_ofBits, bcast11, sl31, sl33, sl13, pos0, pos1, pos2]
  simp only [lik, logits, lay3, lay, lay0, gate, blockParams, half, bound]

end Cert.Entropy

end
-- ==== Proof.Model.lean ====
/-
  The two results as functions of the ten argument arrays, index by index.

  `x` is [16, 192, 64, 64] (batch, channel, row, column); the parameters are per channel: matrices
  m0 [192, 3, 1], m1, m2 [192, 3, 3], m3 [192, 1, 3], biases b0, b1, b2 [192, 3, 1], b3 [192, 1, 1] and the gate
  factors [3, 192, 3, 1] (layer, channel, unit, 1). At the index (b, c, r, w) the first result is `round x` and
  the second the likelihood `lik` (`Spec`) of `x` there under channel `c`'s parameters, the matrices taken
  through softplus and the factors through tanh.
-/
import proofs.«107735_j82557861363977_2_alg».proof.Proof.Spec
import Idealize.ShloMosaic.Lib.ValueIdx

noncomputable section

namespace Cert.Entropy

open Idealize.ShloMosaic Idealize.ShloMosaic.ValueIdx

/-- The argument and result shapes. -/
abbrev AX : Shape := ⟨4, ![16, 192, 64, 64]⟩
abbrev A31 : Shape := ⟨3, ![192, 3, 1]⟩
abbrev A33 : Shape := ⟨3, ![192, 3, 3]⟩
abbrev A13 : Shape := ⟨3, ![192, 1, 3]⟩
abbrev A11 : Shape := ⟨3, ![192, 1, 1]⟩
abbrev AF : Shape := ⟨4, ![3, 192, 3, 1]⟩

/-- The channel of an index of `x`. -/
def chan (i : AX.Idx) : Fin 192 := ⟨(i 1).val, (i 1).isLt⟩

/-- Channel `c`'s parameters from the argument arrays: softplus of the matrices, the biases, tanh of the factors. -/
def chanParams (m0 : A31.Idx → EReal) (m1 m2 : A33.Idx → EReal) (m3 : A13.Idx → EReal) (b0 b1 b2 : A31.Idx → EReal)
    (b3 : A11.Idx → EReal) (f : AF.Idx → EReal) (c : Fin 192) : Params where
  M0 := fun j => softplus (m0 (ix3 c j 0))
  M1 := fun j k => softplus (m1 (ix3 c j k))
  M2 := fun j k => softplus (m2 (ix3 c j k))
  M3 := fun k => softplus (m3 (ix3 c 0 k))
  B0 := fun j => b0 (ix3 c j 0)
  B1 := fun j => b1 (ix3 c j 0)
  B2 := fun j => b2 (ix3 c j 0)
  B3 := b3 (ix3 c 0 0)
  T0 := fun j => Ideal.tanh (f (ix4 0 c j 0))
  T1 := fun j => Ideal.tanh (f (ix4 1 c j 0))
  T2 := fun j => Ideal.tanh (f (ix4 2 c j 0))

/-- The first result: `x` quantized. -/
def roundA (x : AX.Idx → EReal) : AX.Idx → EReal := fun i => quant (x i)

/-- The second result: the likelihood of each element under its channel's parameters. -/
def likA (x : AX.Idx → EReal) (m0 : A31.Idx → EReal) (m1 m2 : A33.Idx → EReal) (m3 : A13.Idx → EReal)
    (b0 b1 b2 : A31.Idx → EReal) (b3 : A11.Idx → EReal) (f : AF.Idx → EReal) : AX.Idx → EReal :=
  fun i => lik (chanParams m0 m1 m2 m3 b0 b1 b2 b3 f (chan i)) (x i)

end Cert.Entropy

end
-- ==== Proof.KernelBlocks.lean ====
/-
  From blocks to arrays: what the two result arrays hold after all 64 launches of the body.

  The grid is 16 × 4: point (b, q) works on batch row `b` and image rows 16q … 16q+15, all 192 channels and
  all 64 columns — the block (b, 0, q, 0) of shape [1, 192, 16, 64] of `x`, and the same block of each result.
  The eleven parameter windows have block index (0, 0, 0, 0) at every point: their block is their whole
  array. So what point `t` writes back to a result is, element by element, a function of the WHOLE arrays
  read at the element's own array index (`roundA` of `Model`, `likW` below: `Spec`'s `quant` and `lik` with the channel
  read off the index), restricted to the block; the blocks tile the result, so the result IS that function.
-/
import proofs.«107735_j82557861363977_2_alg».proof.Proof.KernelPay
import proofs.«107735_j82557861363977_2_alg».proof.Proof.Model

set_option maxRecDepth 16384

noncomputable section

namespace Cert.Entropy

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-- The likelihood array from `x` and the eleven parameter arrays AS THE KERNEL'S WINDOWS HOLD THEM (softplus and
    tanh already applied, a leading unit axis added): `lik` of the index's channel's parameters and of `x` there. -/
def likW (a0 : S16x192x64x64.Idx → EReal) (a1 : S31.Idx → EReal) (a2 a3 : S33.Idx → EReal) (a4 : S13.Idx → EReal)
    (a5 a6 a7 : S31.Idx → EReal) (a8 : S11.Idx → EReal) (a9 a10 a11 : S31.Idx → EReal) : S16x192x64x64.Idx → EReal :=
  fun i => lik (blockParams a1 a2 a3 a4 a5 a6 a7 a8 a9 a10 a11 (chan i)) (a0 i)

/-! ## The index maps, decided over the 64 grid points -/

/-- Every parameter window's block index is zero on every axis, at every point. -/
theorem zeroIdx : ∀ t : Fin cfg0.N, (∀ a : Fin 4, win0_1.index t a = 0) ∧ (∀ a : Fin 4, win0_2.index t a = 0)
    ∧ (∀ a : Fin 4, win0_3.index t a = 0) ∧ (∀ a : Fin 4, win0_4.index t a = 0) ∧ (∀ a : Fin 4, win0_5.index t a = 0)
    ∧ (∀ a : Fin 4, win0_6.index t a = 0) ∧ (∀ a : Fin 4, win0_7.index t a = 0) ∧ (∀ a : Fin 4, win0_8.index t a = 0)
    ∧ (∀ a : Fin 4, win0_9.index t a = 0) ∧ (∀ a : Fin 4, win0_10.index t a = 0) ∧ (∀ a : Fin 4, win0_11.index t a = 0) :=
  (by decide +kernel : ∀ t : Fin grid0.N, _)

/-- The input `x` and the two results move together, their channel and column block indices are zero, and the
    batch and row block indices stay in range. -/
theorem moveIdx : ∀ t : Fin cfg0.N, (∀ a : Fin 4, win0_0.index t a = win0_13.index t a)
    ∧ (∀ a : Fin 4, win0_12.index t a = win0_13.index t a)
    ∧ win0_13.index t (0 : Fin 4) ≤ 15 ∧ win0_13.index t (1 : Fin 4) = 0
    ∧ win0_13.index t (2 : Fin 4) ≤ 3 ∧ win0_13.index t (3 : Fin 4) = 0 :=
  (by decide +kernel : ∀ t : Fin grid0.N, _)

/-- Every block (b, 0, q, 0) is some point's. -/
theorem ontoIdx : ∀ (q0 : Fin 16) (q2 : Fin 4), ∃ t : Fin cfg0.N, win0_13.index t = ![q0.val, 0, q2.val, 0] :=
  (by decide +kernel : ∀ (q0 : Fin 16) (q2 : Fin 4), ∃ t : Fin grid0.N, win0_13.index t = ![q0.val, 0, q2.val, 0])

/-! ## A parameter window's block is its whole array -/

theorem blk1 (c : Dev nD) (t : Fin cfg0.N) (y : ((cfg0.win 1).xblock (cfg0.grid.coords t)).Idx) :
    iblk m c 1 t y = V m c main_v1 y :=
  congrArg (V m c main_v1) (funext fun a => Fin.ext ((cfg0.win 1).rect_emb_val_of_index_zero t a ((zeroIdx t).1 a) y))

theorem blk2 (c : Dev nD) (t : Fin cfg0.N) (y : ((cfg0.win 2).xblock (cfg0.grid.coords t)).Idx) :
    iblk m c 2 t y = V m c main_v3 y :=
  congrArg (V m c main_v3) (funext fun a => Fin.ext ((cfg0.win 2).rect_emb_val_of_index_zero t a ((zeroIdx t).2.1 a) y))

theorem blk3 (c : Dev nD) (t : Fin cfg0.N) (y : ((cfg0.win 3).xblock (cfg0.grid.coords t)).Idx) :
    iblk m c 3 t y = V m c main_v5 y :=
  congrArg (V m c main_v5) (funext fun a => Fin.ext ((cfg0.win 3).rect_emb_val_of_index_zero t a ((zeroIdx t).2.2.1 a) y))

theorem blk4 (c : Dev nD) (t : Fin cfg0.N) (y : ((cfg0.win 4).xblock (cfg0.grid.coords t)).Idx) :
    iblk m c 4 t y = V m c main_v7 y :=
  congrArg (V m c main_v7) (funext fun a => Fin.ext ((cfg0.win 4).rect_emb_val_of_index_zero t a ((zeroIdx t).2.2.2.1 a) y))

theorem blk5 (c : Dev nD) (t : Fin cfg0.N) (y : ((cfg0.win 5).xblock (cfg0.grid.coords t)).Idx) :
    iblk m c 5 t y = V m c main_v8 y :=
  congrArg (V m c main_v8) (funext fun a => Fin.ext ((cfg0.win 5).rect_emb_val_of_index_zero t a ((zeroIdx t).2.2.2.2.1 a) y))

theorem blk6 (c : Dev nD) (t : Fin cfg0.N) (y : ((cfg0.win 6).xblock (cfg0.grid.coords t)).Idx) :
    iblk m c 6 t y = V m c main_v9 y :=
  congrArg (V m c main_v9) (funext fun a => Fin.ext ((cfg0.win 6).rect_emb_val_of_index_zero t a ((zeroIdx t).2.2.2.2.2.1 a) y))

theorem blk7 (c : Dev nD) (t : Fin cfg0.N) (y : ((cfg0.win 7).xblock (cfg0.grid.coords t)).Idx) :
    iblk m c 7 t y = V m c main_v10 y :=
  congrArg (V m c main_v10) (funext fun a => Fin.ext ((cfg0.win 7).rect_emb_val_of_index_zero t a ((zeroIdx t).2.2.2.2.2.2.1 a) y))

theorem blk8 (c : Dev nD) (t : Fin cfg0.N) (y : ((cfg0.win 8).xblock (cfg0.grid.coords t)).Idx) :
    iblk m c 8 t y = V m c main_v11 y :=
  congrArg (V m c main_v11) (funext fun a => Fin.ext ((cfg0.win 8).rect_emb_val_of_index_zero t a ((zeroIdx t).2.2.2.2.2.2.2.1 a) y))

theorem blk9 (c : Dev nD) (t : Fin cfg0.N) (y : ((cfg0.win 9).xblock (cfg0.grid.coords t)).Idx) :
    iblk m c 9 t y = V m c main_v17 y :=
  congrArg (V m c main_v17) (funext fun a => Fin.ext ((cfg0.win 9).rect_emb_val_of_index_zero t a ((zeroIdx t).2.2.2.2.2.2.2.2.1 a) y))

theorem blk10 (c : Dev nD) (t : Fin cfg0.N) (y : ((cfg0.win 10).xblock (cfg0.grid.coords t)).Idx) :
    iblk m c 10 t y = V m c main_v23 y :=
  congrArg (V m c main_v23) (funext fun a => Fin.ext ((cfg0.win 10).rect_emb_val_of_index_zero t a ((zeroIdx t).2.2.2.2.2.2.2.2.2.1 a) y))

theorem blk11 (c : Dev nD) (t : Fin cfg0.N) (y : ((cfg0.win 11).xblock (cfg0.grid.coords t)).Idx) :
    iblk m c 11 t y = V m c main_v29 y :=
  congrArg (V m c main_v29) (funext fun a => Fin.ext ((cfg0.win 11).rect_emb_val_of_index_zero t a ((zeroIdx t).2.2.2.2.2.2.2.2.2.2 a) y))

/-! ## Reading a block, with the array abstract

These hold for ANY contents of the array, by unfolding the block's view: they are stated with the array a variable so
that the arrays of the run (long compositions of host operations) are never opened. -/

/-- Block `t` of `x`'s window read off contents `A`: `A` under the block's embedding. -/
theorem readBlk0 (c : Dev nD) (A : Buf (Elt Ideal) ((c : Thread nD τ).loc main_arg0)) (t : Fin cfg0.N)
    (y : ((cfg0.win 0).xblock (cfg0.grid.coords t)).Idx) :
    ((cfg0.win 0).blk t).view.read (Elt Ideal) A y = A (((cfg0.win 0).blk t).view.emb y) := rfl

/-- The same for the quantized result's window. -/
theorem readBlk12 (c : Dev nD) (A : Buf (Elt Ideal) ((c : Thread nD τ).loc main_v30_0)) (t : Fin cfg0.N)
    (y : ((cfg0.win 12).xblock (cfg0.grid.coords t)).Idx) :
    ((cfg0.win 12).blk t).view.read (Elt Ideal) A y = A (((cfg0.win 12).blk t).view.emb y) := rfl

/-- The same for the likelihood's window. -/
theorem readBlk13 (c : Dev nD) (A : Buf (Elt Ideal) ((c : Thread nD τ).loc main_v30_1)) (t : Fin cfg0.N)
    (y : ((cfg0.win 13).xblock (cfg0.grid.coords t)).Idx) :
    ((cfg0.win 13).blk t).view.read (Elt Ideal) A y = A (((cfg0.win 13).blk t).view.emb y) := rfl

/-- `x`'s block at point `t` is `x` (as the region finds it) under the block's embedding. -/
theorem iblk0_apply (c : Dev nD) (t : Fin cfg0.N) (y : ((cfg0.win 0).xblock (cfg0.grid.coords t)).Idx) :
    iblk m c 0 t y = V m c main_arg0 (((cfg0.win 0).blk t).view.emb y) :=
  readBlk0 c (V m c main_arg0) t y

/-- The three [1, 192, 16, 64] windows put block coordinate `y` at the same array index. -/
theorem emb0_eq13 (t : Fin cfg0.N) (y : S1x192x16x64.Idx) :
    ((cfg0.win 0).blk t).view.emb y = ((cfg0.win 13).blk t).view.emb y := by
  funext a; apply Fin.ext
  exact ((cfg0.win 0).rect_emb_val t y a).trans
    ((congrArg (fun k => k * S1x192x16x64.size a + (y a).val) ((moveIdx t).1 a)).trans ((cfg0.win 13).rect_emb_val t y a).symm)

theorem emb0_eq12 (t : Fin cfg0.N) (y : S1x192x16x64.Idx) :
    ((cfg0.win 0).blk t).view.emb y = ((cfg0.win 12).blk t).view.emb y := by
  funext a; apply Fin.ext
  exact ((cfg0.win 0).rect_emb_val t y a).trans
    ((congrArg (fun k => k * S1x192x16x64.size a + (y a).val) (((moveIdx t).1 a).trans ((moveIdx t).2.1 a).symm)).trans
      ((cfg0.win 12).rect_emb_val t y a).symm)

/-- The channel of the array index under block coordinate (0, cc, h, w) is `cc`: the channel block index is zero. -/
theorem chan_emb13 (t : Fin cfg0.N) (cc : Fin 192) (h : Fin 16) (w : Fin 64) :
    chan (((cfg0.win 13).blk t).view.emb (ix4 0 cc h w)) = cc := by
  apply Fin.ext
  have e1 := (moveIdx t).2.2.2.1
  refine ((cfg0.win 13).rect_emb_val t (ix4 0 cc h w) (1 : Fin 4)).trans ?_
  show win0_13.index t (1 : Fin 4) * 192 + cc.val = cc.val
  omega

/-! ## What a point writes back -/

/-- The body's quantized block, element by element. -/
theorem out12_apply (x0 : Vec Ideal S1x192x16x64 .f32) (x1 : Vec Ideal S1x192x3x1 .f32) (x2 x3 : Vec Ideal S1x192x3x3 .f32)
    (x4 : Vec Ideal S1x192x1x3 .f32) (x5 x6 x7 : Vec Ideal S1x192x3x1 .f32) (x8 : Vec Ideal S1x192x1x1 .f32)
    (x9 x10 x11 : Vec Ideal S1x192x3x1 .f32) (y : S1x192x16x64.Idx) :
    out0_12 x0 x1 x2 x3 x4 x5 x6 x7 x8 x9 x10 x11 y = quant (x0 y) := by
  unfold out0_12
  rw [View.canon_unit_zero hz4]
  simp only [View.ld_unit_zero (S := S1x192x16x64) hz4, k0_pay2, roundeven_apply]

/-- WHAT POINT `t` WRITES BACK to the quantized result is block `t` of `round x`. -/
theorem flushed12_eq (c : Dev nD) (t : Fin cfg0.N) :
    (dats m 0 c).flushed 12 t = ((cfg0.win 12).blk t).view.read (Elt Ideal) (roundA (V m c main_arg0)) := by
  show (cfg0.win 12).cut (grid0.coords t) ((dats m 0 c).after 12 t) = _
  rw [after0_12]
  funext y
  rw [readBlk12 c]
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = _
  rw [out12_apply, iblk0_apply, emb0_eq12]
  rfl

/-- WHAT POINT `t` WRITES BACK to the likelihood is block `t` of `likW` of the arrays as the region finds them: the
    body's result at a block index (`out13_apply`), the block of `x` read where the result's block lies, each
    parameter block its whole array, and the index's channel the block's own channel coordinate. -/
theorem flushed13_eq (c : Dev nD) (t : Fin cfg0.N) :
    (dats m 0 c).flushed 13 t = ((cfg0.win 13).blk t).view.read (Elt Ideal) (likW (V m c main_arg0) (V m c main_v1) (V m c main_v3) (V m c main_v5) (V m c main_v7) (V m c main_v8) (V m c main_v9) (V m c main_v10) (V m c main_v11) (V m c main_v17) (V m c main_v23) (V m c main_v29)) := by
  show (cfg0.win 13).cut (grid0.coords t) ((dats m 0 c).after 13 t) = _
  rw [after0_13]
  funext y
  rw [readBlk13 c]
  obtain ⟨a, cc, h, w, rfl⟩ : ∃ (a : Fin 1) (cc : Fin 192) (h : Fin 16) (w : Fin 64), y = ix4 a cc h w :=
    ⟨y 0, y 1, y 2, y 3, eq_ix4 y⟩
  obtain rfl : a = 0 := Subsingleton.elim _ _
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix4 0 cc h w) = _
  rw [out13_apply, iblk0_apply, emb0_eq13]
  unfold likW
  rw [chan_emb13]
  simp only [blockParams, blk1 m c t, blk2 m c t, blk3 m c t, blk4 m c t, blk5 m c t, blk6 m c t, blk7 m c t, blk8 m c t,
    blk9 m c t, blk10 m c t, blk11 m c t]

/-! ## The blocks tile the results -/

/-- An index of the quantized result is in point `t`'s block iff each coordinate is in the block's range on its axis. -/
theorem mem_blk12 (t : Fin cfg0.N) (i : S16x192x64x64.Idx) :
    i ∈ ((cfg0.win 12).blk t).view.set ↔ ∀ a : Fin 4, win0_12.index t a * S1x192x16x64.size a ≤ (i a).val ∧ (i a).val < win0_12.index t a * S1x192x16x64.size a + S1x192x16x64.size a := by
  show i ∈ ((View.whole main_v30_0).slice (win0_12.rect t)).set ↔ _
  rw [View.set_slice_whole, Rect.mem_set_unit]
  exact Iff.rfl

/-- The same for the likelihood. -/
theorem mem_blk13 (t : Fin cfg0.N) (i : S16x192x64x64.Idx) :
    i ∈ ((cfg0.win 13).blk t).view.set ↔ ∀ a : Fin 4, win0_13.index t a * S1x192x16x64.size a ≤ (i a).val ∧ (i a).val < win0_13.index t a * S1x192x16x64.size a + S1x192x16x64.size a := by
  show i ∈ ((View.whole main_v30_1).slice (win0_13.rect t)).set ↔ _
  rw [View.set_slice_whole, Rect.mem_set_unit]
  exact Iff.rfl

/-- Every index (b, c, r, w) of the likelihood lies in the block of the point (b, r / 16). -/
theorem cover13 (i : S16x192x64x64.Idx) : ∃ t : Fin cfg0.N, (cfg0.win 13).flush t = true ∧ i ∈ ((cfg0.win 13).blk t).view.set := by
  have hi0 : (i 0).val < 16 := (i 0).isLt
  have hi1 : (i 1).val < 192 := (i 1).isLt
  have hi2 : (i 2).val < 64 := (i 2).isLt
  have hi3 : (i 3).val < 64 := (i 3).isLt
  obtain ⟨t, ht⟩ := ontoIdx ⟨(i 0).val, hi0⟩ ⟨(i 2).val / 16, by omega⟩
  have q0 : win0_13.index t (0 : Fin 4) = (i 0).val := congrFun ht 0
  have q1 : win0_13.index t (1 : Fin 4) = 0 := congrFun ht 1
  have q2 : win0_13.index t (2 : Fin 4) = (i 2).val / 16 := congrFun ht 2
  have q3 : win0_13.index t (3 : Fin 4) = 0 := congrFun ht 3
  refine ⟨t, flush0_13 t, ?_⟩
  rw [mem_blk13]
  intro a
  match a with
  | ⟨0, _⟩ => show win0_13.index t (0 : Fin 4) * 1 ≤ (i 0).val ∧ (i 0).val < win0_13.index t (0 : Fin 4) * 1 + 1; omega
  | ⟨1, _⟩ => show win0_13.index t (1 : Fin 4) * 192 ≤ (i 1).val ∧ (i 1).val < win0_13.index t (1 : Fin 4) * 192 + 192; omega
  | ⟨2, _⟩ => show win0_13.index t (2 : Fin 4) * 16 ≤ (i 2).val ∧ (i 2).val < win0_13.index t (2 : Fin 4) * 16 + 16; omega
  | ⟨3, _⟩ => show win0_13.index t (3 : Fin 4) * 64 ≤ (i 3).val ∧ (i 3).val < win0_13.index t (3 : Fin 4) * 64 + 64; omega

/-- The same for the quantized result, whose blocks move with the likelihood's. -/
theorem cover12 (i : S16x192x64x64.Idx) : ∃ t : Fin cfg0.N, (cfg0.win 12).flush t = true ∧ i ∈ ((cfg0.win 12).blk t).view.set := by
  have hi0 : (i 0).val < 16 := (i 0).isLt
  have hi1 : (i 1).val < 192 := (i 1).isLt
  have hi2 : (i 2).val < 64 := (i 2).isLt
  have hi3 : (i 3).val < 64 := (i 3).isLt
  obtain ⟨t, ht⟩ := ontoIdx ⟨(i 0).val, hi0⟩ ⟨(i 2).val / 16, by omega⟩
  obtain ⟨-, e12, -, -, -, -⟩ := moveIdx t
  have q0 : win0_12.index t (0 : Fin 4) = (i 0).val := (e12 0).trans (congrFun ht 0)
  have q1 : win0_12.index t (1 : Fin 4) = 0 := (e12 1).trans (congrFun ht 1)
  have q2 : win0_12.index t (2 : Fin 4) = (i 2).val / 16 := (e12 2).trans (congrFun ht 2)
  have q3 : win0_12.index t (3 : Fin 4) = 0 := (e12 3).trans (congrFun ht 3)
  refine ⟨t, flush0_12 t, ?_⟩
  rw [mem_blk12]
  intro a
  match a with
  | ⟨0, _⟩ => show win0_12.index t (0 : Fin 4) * 1 ≤ (i 0).val ∧ (i 0).val < win0_12.index t (0 : Fin 4) * 1 + 1; omega
  | ⟨1, _⟩ => show win0_12.index t (1 : Fin 4) * 192 ≤ (i 1).val ∧ (i 1).val < win0_12.index t (1 : Fin 4) * 192 + 192; omega
  | ⟨2, _⟩ => show win0_12.index t (2 : Fin 4) * 16 ≤ (i 2).val ∧ (i 2).val < win0_12.index t (2 : Fin 4) * 16 + 16; omega
  | ⟨3, _⟩ => show win0_12.index t (3 : Fin 4) * 64 ≤ (i 3).val ∧ (i 3).val < win0_12.index t (3 : Fin 4) * 64 + 64; omega

/-! ## The arrays after the run -/

/-- The quantized result after the run is `round x`. -/
theorem final12 (c : Dev nD) : (dats m 0 c).arrAt 12 cfg0.N = roundA (V m c main_arg0) :=
  (dats m 0 c).arrAt_eq_of_cover 12 (roundA (V m c main_arg0)) (fun t _ => flushed12_eq m c t) cover12

/-- The likelihood after the run is `likW` of the arrays as the region finds them. -/
theorem final13 (c : Dev nD) : (dats m 0 c).arrAt 13 cfg0.N = likW (V m c main_arg0) (V m c main_v1) (V m c main_v3) (V m c main_v5) (V m c main_v7) (V m c main_v8) (V m c main_v9) (V m c main_v10) (V m c main_v11) (V m c main_v17) (V m c main_v23) (V m c main_v29) :=
  (dats m 0 c).arrAt_eq_of_cover 13 (likW (V m c main_arg0) (V m c main_v1) (V m c main_v3) (V m c main_v5) (V m c main_v7) (V m c main_v8) (V m c main_v9) (V m c main_v10) (V m c main_v11) (V m c main_v17) (V m c main_v23) (V m c main_v29)) (fun t _ => flushed13_eq m c t) cover13

end Cert.Entropy

end
-- ==== Proof.KernelHost.lean ====
/-
  The parameter arrays the kernel's windows hold, in terms of the arguments.

  Before the launch the host applies softplus to the four matrices and tanh to the three slices of the gate
  factors, and gives every parameter array a leading unit axis ([192, a, b] becomes [1, 192, a, b]); the
  biases only get the unit axis. Read at (0, c, j, k), each window array is therefore the softplus, the tanh, or
  the plain value of the argument's entry (c, j, k) (for the factors: (l, c, j, 0), `l` the layer). So channel
  `c`'s parameters as the windows hold them are `chanParams` of the arguments, and `likW` of the window arrays
  is `likA` of the arguments.
-/
import proofs.«107735_j82557861363977_2_alg».proof.Proof.KernelBlocks

set_option maxRecDepth 16384

noncomputable section

namespace Cert.Entropy

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- jax's softplus over a whole array, operation by operation as the host program spells it. -/
def spArr {s : Shape} (hb : S_.BroadcastsInDim s (![] : Fin 0 → Fin s.rank)) (a : FVec Ideal s .f32) : FVec Ideal s .f32 :=
  select (cmpf .une (subf a (broadcastInDim s ![] hb (constant (F := Ideal) S_ .f32 0x00000000#32)))
      (subf a (broadcastInDim s ![] hb (constant (F := Ideal) S_ .f32 0x00000000#32))))
    (addf a (broadcastInDim s ![] hb (constant (F := Ideal) S_ .f32 0x00000000#32)))
    (addf (maximumf a (broadcastInDim s ![] hb (constant (F := Ideal) S_ .f32 0x00000000#32)))
      (Host.log1p (F := Ideal) (Host.exp (F := Ideal) (Host.negf (F := Ideal) (Host.absf (F := Ideal)
        (subf a (broadcastInDim s ![] hb (constant (F := Ideal) S_ .f32 0x00000000#32))))))))

/-- At an index it is `Spec`'s scalar softplus of the element. -/
theorem spArr_apply {s : Shape} (hb : S_.BroadcastsInDim s (![] : Fin 0 → Fin s.rank)) (a : FVec Ideal s .f32) (i : s.Idx) :
    spArr hb a i = softplus (a i) := rfl

/-- Dropping the leading coordinate of (z, c, j, k) leaves (c, j, k). -/
theorem tail4 {n0 n1 n2 n3 : Nat} (z : Fin n0) (c : Fin n1) (j : Fin n2) (k : Fin n3) :
    (fun a : Fin 3 => ix4 z c j k a.succ) = ix3 c j k := by
  funext a; match a with | ⟨0, _⟩ => rfl | ⟨1, _⟩ => rfl | ⟨2, _⟩ => rfl

/-! ## The eleven window arrays as the host leaves them -/

theorem V_v1 (c : Dev nD) : (V m c main_v1 : S1x192x3x1.Idx → EReal)
    = shapeCast S1x192x3x1 (spArr bcast_S_S192x3x1 (m ((c : Thread nD τ).loc main_arg1))) shapeCasts_S192x3x1_S1x192x3x1 := by
  dsimp only [V]
  simp only [hostOps0, hostOps0_1, hostOps0_2, hostOps0_3, hostOps0_4, hostOps0_5, hostOps0_6, hostOps0_7, List.flatten_cons, List.flatten_nil,
    List.append_nil, List.cons_append, List.nil_append]
  after_results_simp
  rfl

theorem V_v3 (c : Dev nD) : (V m c main_v3 : S1x192x3x3.Idx → EReal)
    = shapeCast S1x192x3x3 (spArr bcast_S_S192x3x3 (m ((c : Thread nD τ).loc main_arg2))) shapeCasts_S192x3x3_S1x192x3x3 := by
  dsimp only [V]
  simp only [hostOps0, hostOps0_1, hostOps0_2, hostOps0_3, hostOps0_4, hostOps0_5, hostOps0_6, hostOps0_7, List.flatten_cons, List.flatten_nil,
    List.append_nil, List.cons_append, List.nil_append]
  after_results_simp
  rfl

theorem V_v5 (c : Dev nD) : (V m c main_v5 : S1x192x3x3.Idx → EReal)
    = shapeCast S1x192x3x3 (spArr bcast_S_S192x3x3 (m ((c : Thread nD τ).loc main_arg3))) shapeCasts_S192x3x3_S1x192x3x3 := by
  dsimp only [V]
  simp only [hostOps0, hostOps0_1, hostOps0_2, hostOps0_3, hostOps0_4, hostOps0_5, hostOps0_6, hostOps0_7, List.flatten_cons, List.flatten_nil,
    List.append_nil, List.cons_append, List.nil_append]
  after_results_simp
  rfl

theorem V_v7 (c : Dev nD) : (V m c main_v7 : S1x192x1x3.Idx → EReal)
    = shapeCast S1x192x1x3 (spArr bcast_S_S192x1x3 (m ((c : Thread nD τ).loc main_arg4))) shapeCasts_S192x1x3_S1x192x1x3 := by
  dsimp only [V]
  simp only [hostOps0, hostOps0_1, hostOps0_2, hostOps0_3, hostOps0_4, hostOps0_5, hostOps0_6, hostOps0_7, List.flatten_cons, List.flatten_nil,
    List.append_nil, List.cons_append, List.nil_append]
  after_results_simp
  rfl

theorem V_v8 (c : Dev nD) : (V m c main_v8 : S1x192x3x1.Idx → EReal)
    = shapeCast S1x192x3x1 (m ((c : Thread nD τ).loc main_arg5)) shapeCasts_S192x3x1_S1x192x3x1 := by
  dsimp only [V]
  simp only [hostOps0, hostOps0_1, hostOps0_2, hostOps0_3, hostOps0_4, hostOps0_5, hostOps0_6, hostOps0_7, List.flatten_cons, List.flatten_nil,
    List.append_nil, List.cons_append, List.nil_append]
  after_results_simp
  rfl

theorem V_v9 (c : Dev nD) : (V m c main_v9 : S1x192x3x1.Idx → EReal)
    = shapeCast S1x192x3x1 (m ((c : Thread nD τ).loc main_arg6)) shapeCasts_S192x3x1_S1x192x3x1 := by
  dsimp only [V]
  simp only [hostOps0, hostOps0_1, hostOps0_2, hostOps0_3, hostOps0_4, hostOps0_5, hostOps0_6, hostOps0_7, List.flatten_cons, List.flatten_nil,
    List.append_nil, List.cons_append, List.nil_append]
  after_results_simp
  rfl

theorem V_v10 (c : Dev nD) : (V m c main_v10 : S1x192x3x1.Idx → EReal)
    = shapeCast S1x192x3x1 (m ((c : Thread nD τ).loc main_arg7)) shapeCasts_S192x3x1_S1x192x3x1 := by
  dsimp only [V]
  simp only [hostOps0, hostOps0_1, hostOps0_2, hostOps0_3, hostOps0_4, hostOps0_5, hostOps0_6, hostOps0_7, List.flatten_cons, List.flatten_nil,
    List.append_nil, List.cons_append, List.nil_append]
  after_results_simp
  rfl

theorem V_v11 (c : Dev nD) : (V m c main_v11 : S1x192x1x1.Idx → EReal)
    = shapeCast S1x192x1x1 (m ((c : Thread nD τ).loc main_arg8)) shapeCasts_S192x1x1_S1x192x1x1 := by
  dsimp only [V]
  simp only [hostOps0, hostOps0_1, hostOps0_2, hostOps0_3, hostOps0_4, hostOps0_5, hostOps0_6, hostOps0_7, List.flatten_cons, List.flatten_nil,
    List.append_nil, List.cons_append, List.nil_append]
  after_results_simp
  rfl

theorem V_v17 (c : Dev nD) : (V m c main_v17 : S1x192x3x1.Idx → EReal)
    = shapeCast S1x192x3x1 (Host.tanh (F := Ideal) (φ := .f32) (shapeCast S192x3x1
        (extractStridedSlice S1x192x3x1 ![0, 0, 0, 0] (m ((c : Thread nD τ).loc main_arg9) : FVec Ideal S3x192x3x1 .f32) slices_S3x192x3x1_S1x192x3x1_0_0_0_0)
        shapeCasts_S1x192x3x1_S192x3x1)) shapeCasts_S192x3x1_S1x192x3x1 := by
  dsimp only [V]
  simp only [hostOps0, hostOps0_1, hostOps0_2, hostOps0_3, hostOps0_4, hostOps0_5, hostOps0_6, hostOps0_7, List.flatten_cons, List.flatten_nil,
    List.append_nil, List.cons_append, List.nil_append]
  after_results_simp
  rfl

theorem V_v23 (c : Dev nD) : (V m c main_v23 : S1x192x3x1.Idx → EReal)
    = shapeCast S1x192x3x1 (Host.tanh (F := Ideal) (φ := .f32) (shapeCast S192x3x1
        (extractStridedSlice S1x192x3x1 ![1, 0, 0, 0] (m ((c : Thread nD τ).loc main_arg9) : FVec Ideal S3x192x3x1 .f32) slices_S3x192x3x1_S1x192x3x1_1_0_0_0)
        shapeCasts_S1x192x3x1_S192x3x1)) shapeCasts_S192x3x1_S1x192x3x1 := by
  dsimp only [V]
  simp only [hostOps0, hostOps0_1, hostOps0_2, hostOps0_3, hostOps0_4, hostOps0_5, hostOps0_6, hostOps0_7, List.flatten_cons, List.flatten_nil,
    List.append_nil, List.cons_append, List.nil_append]
  after_results_simp
  rfl

theorem V_v29 (c : Dev nD) : (V m c main_v29 : S1x192x3x1.Idx → EReal)
    = shapeCast S1x192x3x1 (Host.tanh (F := Ideal) (φ := .f32) (shapeCast S192x3x1
        (extractStridedSlice S1x192x3x1 ![2, 0, 0, 0] (m ((c : Thread nD τ).loc main_arg9) : FVec Ideal S3x192x3x1 .f32) slices_S3x192x3x1_S1x192x3x1_2_0_0_0)
        shapeCasts_S1x192x3x1_S192x3x1)) shapeCasts_S192x3x1_S1x192x3x1 := by
  dsimp only [V]
  simp only [hostOps0, hostOps0_1, hostOps0_2, hostOps0_3, hostOps0_4, hostOps0_5, hostOps0_6, hostOps0_7, List.flatten_cons, List.flatten_nil,
    List.append_nil, List.cons_append, List.nil_append]
  after_results_simp
  rfl

/-! ## The window arrays read at an index -/

section AtIndex
variable (c : Dev nD) (cc : Fin 192) (j k : Fin 3)

theorem V_v1_apply : V m c main_v1 (ix4 0 cc j 0) = softplus ((m ((c : Thread nD τ).loc main_arg1)) (ix3 cc j 0)) := by
  rw [V_v1]
  refine (shapeCast_addUnit_apply ![192, 3, 1] _ _ (ix4 0 cc j 0)).trans ?_
  rw [tail4]
  rfl

theorem V_v3_apply : V m c main_v3 (ix4 0 cc j k) = softplus ((m ((c : Thread nD τ).loc main_arg2)) (ix3 cc j k)) := by
  rw [V_v3]
  refine (shapeCast_addUnit_apply ![192, 3, 3] _ _ (ix4 0 cc j k)).trans ?_
  rw [tail4]
  rfl

theorem V_v5_apply : V m c main_v5 (ix4 0 cc j k) = softplus ((m ((c : Thread nD τ).loc main_arg3)) (ix3 cc j k)) := by
  rw [V_v5]
  refine (shapeCast_addUnit_apply ![192, 3, 3] _ _ (ix4 0 cc j k)).trans ?_
  rw [tail4]
  rfl

theorem V_v7_apply : V m c main_v7 (ix4 0 cc 0 k) = softplus ((m ((c : Thread nD τ).loc main_arg4)) (ix3 cc 0 k)) := by
  rw [V_v7]
  refine (shapeCast_addUnit_apply ![192, 1, 3] _ _ (ix4 0 cc 0 k)).trans ?_
  rw [tail4]
  rfl

theorem V_v8_apply : V m c main_v8 (ix4 0 cc j 0) = (m ((c : Thread nD τ).loc main_arg5)) (ix3 cc j 0) := by
  rw [V_v8]
  refine (shapeCast_addUnit_apply ![192, 3, 1] _ _ (ix4 0 cc j 0)).trans ?_
  rw [tail4]

theorem V_v9_apply : V m c main_v9 (ix4 0 cc j 0) = (m ((c : Thread nD τ).loc main_arg6)) (ix3 cc j 0) := by
  rw [V_v9]
  refine (shapeCast_addUnit_apply ![192, 3, 1] _ _ (ix4 0 cc j 0)).trans ?_
  rw [tail4]

theorem V_v10_apply : V m c main_v10 (ix4 0 cc j 0) = (m ((c : Thread nD τ).loc main_arg7)) (ix3 cc j 0) := by
  rw [V_v10]
  refine (shapeCast_addUnit_apply ![192, 3, 1] _ _ (ix4 0 cc j 0)).trans ?_
  rw [tail4]

theorem V_v11_apply : V m c main_v11 (ix4 0 cc 0 0) = (m ((c : Thread nD τ).loc main_arg8)) (ix3 cc 0 0) := by
  rw [V_v11]
  refine (shapeCast_addUnit_apply ![192, 1, 1] _ _ (ix4 0 cc 0 0)).trans ?_
  rw [tail4]

/-- The gate factors of the first layer: slice 0 of the factor array, tanh applied, the unit axis dropped and put back. -/
theorem V_v17_apply : V m c main_v17 (ix4 0 cc j 0) = Ideal.tanh ((m ((c : Thread nD τ).loc main_arg9)) (ix4 0 cc j 0)) := by
  rw [V_v17]
  refine (shapeCast_addUnit_apply ![192, 3, 1] _ _ (ix4 0 cc j 0)).trans ?_
  rw [tail4]
  refine congrArg Ideal.tanh ?_
  refine (shapeCast_dropUnit_apply ![192, 3, 1] _ _ (ix3 cc j 0)).trans ?_
  exact extractStridedSlice_apply _ _ _ _ (ix4 0 cc j 0) (fun a => match a with
      | ⟨0, _⟩ => rfl
      | ⟨1, _⟩ => by show cc.val = 0 + cc.val; omega
      | ⟨2, _⟩ => by show j.val = 0 + j.val; omega
      | ⟨3, _⟩ => rfl)

/-- The second layer's: slice 1. -/
theorem V_v23_apply : V m c main_v23 (ix4 0 cc j 0) = Ideal.tanh ((m ((c : Thread nD τ).loc main_arg9)) (ix4 1 cc j 0)) := by
  rw [V_v23]
  refine (shapeCast_addUnit_apply ![192, 3, 1] _ _ (ix4 0 cc j 0)).trans ?_
  rw [tail4]
  refine congrArg Ideal.tanh ?_
  refine (shapeCast_dropUnit_apply ![192, 3, 1] _ _ (ix3 cc j 0)).trans ?_
  exact extractStridedSlice_apply _ _ _ _ (ix4 1 cc j 0) (fun a => match a with
      | ⟨0, _⟩ => rfl
      | ⟨1, _⟩ => by show cc.val = 0 + cc.val; omega
      | ⟨2, _⟩ => by show j.val = 0 + j.val; omega
      | ⟨3, _⟩ => rfl)

/-- The third layer's: slice 2. -/
theorem V_v29_apply : V m c main_v29 (ix4 0 cc j 0) = Ideal.tanh ((m ((c : Thread nD τ).loc main_arg9)) (ix4 2 cc j 0)) := by
  rw [V_v29]
  refine (shapeCast_addUnit_apply ![192, 3, 1] _ _ (ix4 0 cc j 0)).trans ?_
  rw [tail4]
  refine congrArg Ideal.tanh ?_
  refine (shapeCast_dropUnit_apply ![192, 3, 1] _ _ (ix3 cc j 0)).trans ?_
  exact extractStridedSlice_apply _ _ _ _ (ix4 2 cc j 0) (fun a => match a with
      | ⟨0, _⟩ => rfl
      | ⟨1, _⟩ => by show cc.val = 0 + cc.val; omega
      | ⟨2, _⟩ => by show j.val = 0 + j.val; omega
      | ⟨3, _⟩ => rfl)

end AtIndex

/-! ## The likelihood array in terms of the arguments -/

/-- Channel `cc`'s parameters as the windows hold them are `chanParams` of the arguments. -/
theorem params_eq (c : Dev nD) (cc : Fin 192) :
    blockParams (V m c main_v1) (V m c main_v3) (V m c main_v5) (V m c main_v7) (V m c main_v8) (V m c main_v9) (V m c main_v10)
        (V m c main_v11) (V m c main_v17) (V m c main_v23) (V m c main_v29) cc
      = chanParams (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) cc := by
  unfold blockParams chanParams
  simp only [Params.mk.injEq]
  exact ⟨funext fun j => V_v1_apply m c cc j, funext fun j => funext fun k => V_v3_apply m c cc j k,
    funext fun j => funext fun k => V_v5_apply m c cc j k, funext fun k => V_v7_apply m c cc k,
    funext fun j => V_v8_apply m c cc j, funext fun j => V_v9_apply m c cc j, funext fun j => V_v10_apply m c cc j,
    V_v11_apply m c cc, funext fun j => V_v17_apply m c cc j, funext fun j => V_v23_apply m c cc j,
    funext fun j => V_v29_apply m c cc j⟩

/-- So `likW` of the arrays as the region finds them is `likA` of the arguments. -/
theorem likW_eq (c : Dev nD) :
    likW (V m c main_arg0) (V m c main_v1) (V m c main_v3) (V m c main_v5) (V m c main_v7) (V m c main_v8) (V m c main_v9) (V m c main_v10) (V m c main_v11) (V m c main_v17) (V m c main_v23) (V m c main_v29)
      = likA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  unfold likW likA
  rw [params_eq, V_main_arg0]

end Cert.Entropy

end
-- ==== Proof.KernelRun.lean ====
/-
  The idealized kernel's run, read: the two result arrays as functions of the arguments.

  The generated frame run ends with each result array at what the library computes from the per-point write-backs;
  the blocks tile the results (`KernelBlocks`) and the window arrays are the host's softplus, tanh and reshapes of
  the arguments (`KernelHost`), so the first result is `roundA` of `x` and the second `likA` of the ten arguments,
  and the arguments end unchanged.
-/
import proofs.«107735_j82557861363977_2_alg».proof.Proof.KernelHost

noncomputable section

namespace Cert.Entropy

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- Every weakly fair execution of the idealized kernel's program terminates with the quantized result at `roundA`
    of `x`, the likelihood at `likA` of the arguments, and the arguments unchanged. -/
theorem kernel_run : θ_run defs (onTc (τ := τ) (main (F := Ideal))) ⟨m, fun _ => 0, ρ⟩ fun r => ∀ c : Dev nD,
      r.2.mem ((c.tc : Thread nD τ).loc main_v30_0) = roundA (m ((c.tc : Thread nD τ).loc main_arg0))
      ∧ r.2.mem ((c.tc : Thread nD τ).loc main_v30_1)
          = likA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).1 12).trans ((final12 m c).trans (congrArg roundA (V_main_arg0 m c))),
      ((h c).1 13).trans ((final13 m c).trans (likW_eq m c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.Entropy

end
-- ==== Proof.RefLayers.lean ====
/-
  The reference, read layer by layer at a flat index.

  The reference moves the channel axis to the front and flattens the rest: `x` becomes [192, 1, 65536], position
  (c, 0, n) holding the element (b, c, r, w) with n = (64 b + r) 64 + w. On that layout each layer of the network
  is a matrix product batched over the channel, `(softplus m)[c] · l[c]`, plus a bias column, followed by the
  gate. Read at (c, j, n), the product is a sum over `k` of `softplus m (c, j, k)` times the previous layer at
  (c, k, n); a sum over three (or one) indices is the left-to-right sum (`sum3`, `sum1`), which is the form `Spec`
  writes. So by induction along the four layers the logit at (c, 0, n) is `logits` of channel `c`'s parameters at
  the layer's input there, and the likelihood `lik`; the host's `sign` is the order's sign, and its logistic
  function is spelt out `1 / (1 + exp (-x))`, which is the definition of the logistic function on the extended
  reals. The softplus of the matrices and the tanh of the gate factors are the SAME operations, on the same
  arguments, as on the kernel's side, and are kept as `Spec`'s `softplus` and the extended reals' `tanh`.
-/
import proofs.«107735_j82557861363977_2_alg».proof.Proof.Gen.ReferenceIdeal.Read
import proofs.«107735_j82557861363977_2_alg».proof.Proof.Model

noncomputable section

namespace Cert.Entropy

open Idealize.ShloMosaic Idealize.ShloMosaic.ValueIdx
open Cert.ReferenceIdeal Cert.ReferenceIdeal.Read

/-- The argument arrays' types, as the reference's stages take them. -/
abbrev TX := (⟨S16x192x64x64, .f32⟩ : BufTy).Contents (Elt Ideal)
abbrev T31 := (⟨S192x3x1, .f32⟩ : BufTy).Contents (Elt Ideal)
abbrev T33 := (⟨S192x3x3, .f32⟩ : BufTy).Contents (Elt Ideal)
abbrev T13 := (⟨S192x1x3, .f32⟩ : BufTy).Contents (Elt Ideal)
abbrev T11 := (⟨S192x1x1, .f32⟩ : BufTy).Contents (Elt Ideal)
abbrev TF := (⟨S3x192x3x1, .f32⟩ : BufTy).Contents (Elt Ideal)

/-! ## The eight softplus calls (four matrices, once for each of the two logits) -/

theorem sp_v5 (x1 : T31) (J : S192x3x1.Idx) : val_main_v5 (F := Ideal) x1 J = softplus (x1 J) := by
  simp only [val_main_v5_apply, val_main_call1_v4_apply, val_main_call1_v6_apply, val_main_call1_v11_apply,
    val_main_call1_v3_apply, val_main_call1_v1_apply, val_main_call1_v10_apply, val_main_call1_v9_apply,
    val_main_call1_v8_apply, val_main_call1_v7_apply, val_main_call1_v0_apply, val_main_call1_v2_apply,
    val_main_call1_v5_apply, val_main_call1_cst_apply]
  rfl

theorem sp_v16 (x2 : T33) (J : S192x3x3.Idx) : val_main_v16 (F := Ideal) x2 J = softplus (x2 J) := by
  simp only [val_main_v16_apply, val_main_call2_v4_apply, val_main_call2_v6_apply, val_main_call2_v11_apply,
    val_main_call2_v3_apply, val_main_call2_v1_apply, val_main_call2_v10_apply, val_main_call2_v9_apply,
    val_main_call2_v8_apply, val_main_call2_v7_apply, val_main_call2_v0_apply, val_main_call2_v2_apply,
    val_main_call2_v5_apply, val_main_call2_cst_apply]
  rfl

theorem sp_v27 (x3 : T33) (J : S192x3x3.Idx) : val_main_v27 (F := Ideal) x3 J = softplus (x3 J) := by
  simp only [val_main_v27_apply, val_main_call3_v4_apply, val_main_call3_v6_apply, val_main_call3_v11_apply,
    val_main_call3_v3_apply, val_main_call3_v1_apply, val_main_call3_v10_apply, val_main_call3_v9_apply,
    val_main_call3_v8_apply, val_main_call3_v7_apply, val_main_call3_v0_apply, val_main_call3_v2_apply,
    val_main_call3_v5_apply, val_main_call3_cst_apply]
  rfl

theorem sp_v38 (x4 : T13) (J : S192x1x3.Idx) : val_main_v38 (F := Ideal) x4 J = softplus (x4 J) := by
  simp only [val_main_v38_apply, val_main_call4_v4_apply, val_main_call4_v6_apply, val_main_call4_v11_apply,
    val_main_call4_v3_apply, val_main_call4_v1_apply, val_main_call4_v10_apply, val_main_call4_v9_apply,
    val_main_call4_v8_apply, val_main_call4_v7_apply, val_main_call4_v0_apply, val_main_call4_v2_apply,
    val_main_call4_v5_apply, val_main_call4_cst_apply]
  rfl

theorem sp_v44 (x1 : T31) (J : S192x3x1.Idx) : val_main_v44 (F := Ideal) x1 J = softplus (x1 J) := by
  simp only [val_main_v44_apply, val_main_call5_v4_apply, val_main_call5_v6_apply, val_main_call5_v11_apply,
    val_main_call5_v3_apply, val_main_call5_v1_apply, val_main_call5_v10_apply, val_main_call5_v9_apply,
    val_main_call5_v8_apply, val_main_call5_v7_apply, val_main_call5_v0_apply, val_main_call5_v2_apply,
    val_main_call5_v5_apply, val_main_call5_cst_apply]
  rfl

theorem sp_v55 (x2 : T33) (J : S192x3x3.Idx) : val_main_v55 (F := Ideal) x2 J = softplus (x2 J) := by
  simp only [val_main_v55_apply, val_main_call6_v4_apply, val_main_call6_v6_apply, val_main_call6_v11_apply,
    val_main_call6_v3_apply, val_main_call6_v1_apply, val_main_call6_v10_apply, val_main_call6_v9_apply,
    val_main_call6_v8_apply, val_main_call6_v7_apply, val_main_call6_v0_apply, val_main_call6_v2_apply,
    val_main_call6_v5_apply, val_main_call6_cst_apply]
  rfl

theorem sp_v66 (x3 : T33) (J : S192x3x3.Idx) : val_main_v66 (F := Ideal) x3 J = softplus (x3 J) := by
  simp only [val_main_v66_apply, val_main_call7_v4_apply, val_main_call7_v6_apply, val_main_call7_v11_apply,
    val_main_call7_v3_apply, val_main_call7_v1_apply, val_main_call7_v10_apply, val_main_call7_v9_apply,
    val_main_call7_v8_apply, val_main_call7_v7_apply, val_main_call7_v0_apply, val_main_call7_v2_apply,
    val_main_call7_v5_apply, val_main_call7_cst_apply]
  rfl

theorem sp_v77 (x4 : T13) (J : S192x1x3.Idx) : val_main_v77 (F := Ideal) x4 J = softplus (x4 J) := by
  simp only [val_main_v77_apply, val_main_call8_v4_apply, val_main_call8_v6_apply, val_main_call8_v11_apply,
    val_main_call8_v3_apply, val_main_call8_v1_apply, val_main_call8_v10_apply, val_main_call8_v9_apply,
    val_main_call8_v8_apply, val_main_call8_v7_apply, val_main_call8_v0_apply, val_main_call8_v2_apply,
    val_main_call8_v5_apply, val_main_call8_cst_apply]
  rfl

/-! ## Where each stage reads its operands, at a flat index (c, j, n)

A bias or gate-factor column broadcast along the flat axis is read at (c, j, 0); the gate factors of layer `l`
are the slice `l` of the factor array with its leading unit axis dropped, so column (c, j, 0) is the factor array's
entry (l, c, j, 0); a product's left operand is read at (c, j, k) and its right operand at (c, k, n). -/

section Indices
variable (c : Fin 192) (j : Fin 3) (n : Fin 65536)

/-- The tactic for an index equation that holds coordinate by coordinate by unfolding. -/
local macro "coords3" : tactic =>
  `(tactic| (funext a; match a with | ⟨0, _⟩ => rfl | ⟨1, _⟩ => rfl | ⟨2, _⟩ => rfl))
local macro "coords4" : tactic =>
  `(tactic| (funext a; match a with | ⟨0, _⟩ => rfl | ⟨1, _⟩ => rfl | ⟨2, _⟩ => rfl | ⟨3, _⟩ => rfl))

-- bias columns
theorem i7 : idx_main_v7 (ix3 c j n) = ix3 c j 0 := by coords3
theorem i18 : idx_main_v18 (ix3 c j n) = ix3 c j 0 := by coords3
theorem i29 : idx_main_v29 (ix3 c j n) = ix3 c j 0 := by coords3
theorem i40 : idx_main_v40 (ix3 c 0 n) = ix3 c 0 0 := by coords3
theorem i46 : idx_main_v46 (ix3 c j n) = ix3 c j 0 := by coords3
theorem i57 : idx_main_v57 (ix3 c j n) = ix3 c j 0 := by coords3
theorem i68 : idx_main_v68 (ix3 c j n) = ix3 c j 0 := by coords3
theorem i79 : idx_main_v79 (ix3 c 0 n) = ix3 c 0 0 := by coords3
-- gate-factor columns
theorem i13 : idx_main_v13 (ix3 c j n) = ix3 c j 0 := by coords3
theorem i24 : idx_main_v24 (ix3 c j n) = ix3 c j 0 := by coords3
theorem i35 : idx_main_v35 (ix3 c j n) = ix3 c j 0 := by coords3
theorem i52 : idx_main_v52 (ix3 c j n) = ix3 c j 0 := by coords3
theorem i63 : idx_main_v63 (ix3 c j n) = ix3 c j 0 := by coords3
theorem i74 : idx_main_v74 (ix3 c j n) = ix3 c j 0 := by coords3
-- the products' operands
theorem li6 (k : Fin 1) : lidx_main_v6 (ix3 c j n) k = ix3 c j k := by coords3
theorem ri6 (k : Fin 1) : ridx_main_v6 (ix3 c j n) k = ix3 c k n := by coords3
theorem li17 (k : Fin 3) : lidx_main_v17 (ix3 c j n) k = ix3 c j k := by coords3
theorem ri17 (k : Fin 3) : ridx_main_v17 (ix3 c j n) k = ix3 c k n := by coords3
theorem li28 (k : Fin 3) : lidx_main_v28 (ix3 c j n) k = ix3 c j k := by coords3
theorem ri28 (k : Fin 3) : ridx_main_v28 (ix3 c j n) k = ix3 c k n := by coords3
theorem li39 (k : Fin 3) : lidx_main_v39 (ix3 c 0 n) k = ix3 c 0 k := by coords3
theorem ri39 (k : Fin 3) : ridx_main_v39 (ix3 c 0 n) k = ix3 c k n := by coords3
theorem li45 (k : Fin 1) : lidx_main_v45 (ix3 c j n) k = ix3 c j k := by coords3
theorem ri45 (k : Fin 1) : ridx_main_v45 (ix3 c j n) k = ix3 c k n := by coords3
theorem li56 (k : Fin 3) : lidx_main_v56 (ix3 c j n) k = ix3 c j k := by coords3
theorem ri56 (k : Fin 3) : ridx_main_v56 (ix3 c j n) k = ix3 c k n := by coords3
theorem li67 (k : Fin 3) : lidx_main_v67 (ix3 c j n) k = ix3 c j k := by coords3
theorem ri67 (k : Fin 3) : ridx_main_v67 (ix3 c j n) k = ix3 c k n := by coords3
theorem li78 (k : Fin 3) : lidx_main_v78 (ix3 c 0 n) k = ix3 c 0 k := by coords3
theorem ri78 (k : Fin 3) : ridx_main_v78 (ix3 c 0 n) k = ix3 c k n := by coords3

/-- Column (c, j, 0) of a [192, 3, 1] array, seen as [1, 192, 3, 1], is entry (0, c, j, 0): the row-major position
    3 c + j read back as (c, j). -/
theorem dropLead (f : S192x3x1.Idx → S1x192x3x1.Idx)
    (h0 : ∀ i, (f i 0).val = 0) (h1 : ∀ i, (f i 1).val = (((i 0).val * 3 + (i 1).val) * 1 + (i 2).val) / 3 % 192)
    (h2 : ∀ i, (f i 2).val = (((i 0).val * 3 + (i 1).val) * 1 + (i 2).val) / 1 % 3) (h3 : ∀ i, (f i 3).val = 0) :
    f (ix3 c j 0) = ix4 0 c j 0 := by
  funext a; apply Fin.ext
  have hc := c.isLt; have hj := j.isLt
  match a with
  | ⟨0, _⟩ => exact h0 _
  | ⟨1, _⟩ => refine (h1 (ix3 c j 0)).trans ?_; show ((c.val * 3 + j.val) * 1 + 0) / 3 % 192 = c.val; omega
  | ⟨2, _⟩ => refine (h2 (ix3 c j 0)).trans ?_; show ((c.val * 3 + j.val) * 1 + 0) / 1 % 3 = j.val; omega
  | ⟨3, _⟩ => exact h3 _

theorem i10 : idx_main_v10 (ix3 c j 0) = ix4 0 c j 0 := dropLead c j _ (fun _ => rfl) (fun _ => rfl) (fun _ => rfl) (fun _ => rfl)
theorem i21 : idx_main_v21 (ix3 c j 0) = ix4 0 c j 0 := dropLead c j _ (fun _ => rfl) (fun _ => rfl) (fun _ => rfl) (fun _ => rfl)
theorem i32 : idx_main_v32 (ix3 c j 0) = ix4 0 c j 0 := dropLead c j _ (fun _ => rfl) (fun _ => rfl) (fun _ => rfl) (fun _ => rfl)
theorem i49 : idx_main_v49 (ix3 c j 0) = ix4 0 c j 0 := dropLead c j _ (fun _ => rfl) (fun _ => rfl) (fun _ => rfl) (fun _ => rfl)
theorem i60 : idx_main_v60 (ix3 c j 0) = ix4 0 c j 0 := dropLead c j _ (fun _ => rfl) (fun _ => rfl) (fun _ => rfl) (fun _ => rfl)
theorem i71 : idx_main_v71 (ix3 c j 0) = ix4 0 c j 0 := dropLead c j _ (fun _ => rfl) (fun _ => rfl) (fun _ => rfl) (fun _ => rfl)

-- slice l of the factor array
theorem i9 : idx_main_v9 (ix4 0 c j 0) = ix4 0 c j 0 := by coords4
theorem i20 : idx_main_v20 (ix4 0 c j 0) = ix4 1 c j 0 := by coords4
theorem i31 : idx_main_v31 (ix4 0 c j 0) = ix4 2 c j 0 := by coords4
theorem i48 : idx_main_v48 (ix4 0 c j 0) = ix4 0 c j 0 := by coords4
theorem i59 : idx_main_v59 (ix4 0 c j 0) = ix4 1 c j 0 := by coords4
theorem i70 : idx_main_v70 (ix4 0 c j 0) = ix4 2 c j 0 := by coords4

end Indices

end Cert.Entropy

end
-- ==== Proof.RefValue.lean ====
/-
  The reference's two results are `roundA` and `likA` of its arguments.

  Layer by layer at a flat index (c, j, n) (`RefLayers` has the operand positions): the first layer is `lay0` of
  the layer input at (c, 0, n), a middle layer `lay` of the previous layer's three values at (c, ·, n), the last
  `lay3`; so the two logits at (c, 0, n) are `logits` at `q - 1/2` and `q + 1/2`, `q` the rounded element, and
  the likelihood there is `lik`. The flat position (c, 0, (64 b + r) 64 + w) holds the element (b, c, r, w): the
  transposition and the reshape on the way in, and their inverses on the way out, cancel.
-/
import proofs.«107735_j82557861363977_2_alg».proof.Proof.RefLayers

noncomputable section

namespace Cert.Entropy

open Idealize.ShloMosaic Idealize.ShloMosaic.ValueIdx
open Cert.ReferenceIdeal Cert.ReferenceIdeal.Read

section Layers
variable (x0 : TX) (x1 : T31) (x2 x3 : T33) (x4 : T13) (x5 x6 x7 : T31) (x8 : T11) (x9 : TF) (c : Fin 192) (j : Fin 3) (n : Fin 65536)

/-! ## The lower logit: layers on `q - 1/2` -/

theorem lowerL0 : val_main_v15 (F := Ideal) x0 x1 x5 x9 (ix3 c j n)
    = lay0 (chanParams x1 x2 x3 x4 x5 x6 x7 x8 x9 c).M0 (chanParams x1 x2 x3 x4 x5 x6 x7 x8 x9 c).B0 (chanParams x1 x2 x3 x4 x5 x6 x7 x8 x9 c).T0 (val_main_v4 (F := Ideal) x0 (ix3 c 0 n)) j := by
  simp only [val_main_v15_apply, val_main_v14_apply, val_main_v13_apply, val_main_v12_apply, val_main_v11_apply,
    val_main_v10_apply, val_main_v9_apply, val_main_v8_apply, val_main_v7_apply, val_main_v6_apply, sp_v5,
    i13, i7, li6, ri6, i10, i9, sum1, Ideal.addf_def, Ideal.mulf_def, Ideal.hostUnary_tanh_def]
  simp only [lay0, gate, chanParams]

theorem lowerL1 : val_main_v26 (F := Ideal) x0 x1 x2 x5 x6 x9 (ix3 c j n)
    = lay (chanParams x1 x2 x3 x4 x5 x6 x7 x8 x9 c).M1 (chanParams x1 x2 x3 x4 x5 x6 x7 x8 x9 c).B1 (chanParams x1 x2 x3 x4 x5 x6 x7 x8 x9 c).T1 (fun k => val_main_v15 (F := Ideal) x0 x1 x5 x9 (ix3 c k n)) j := by
  simp only [val_main_v26_apply, val_main_v25_apply, val_main_v24_apply, val_main_v23_apply, val_main_v22_apply,
    val_main_v21_apply, val_main_v20_apply, val_main_v19_apply, val_main_v18_apply, val_main_v17_apply, sp_v16,
    i24, i18, li17, ri17, i21, i20, sum3, Ideal.addf_def, Ideal.mulf_def, Ideal.hostUnary_tanh_def]
  simp only [lay, gate, chanParams]

theorem lowerL2 : val_main_v37 (F := Ideal) x0 x1 x2 x3 x5 x6 x7 x9 (ix3 c j n)
    = lay (chanParams x1 x2 x3 x4 x5 x6 x7 x8 x9 c).M2 (chanParams x1 x2 x3 x4 x5 x6 x7 x8 x9 c).B2 (chanParams x1 x2 x3 x4 x5 x6 x7 x8 x9 c).T2 (fun k => val_main_v26 (F := Ideal) x0 x1 x2 x5 x6 x9 (ix3 c k n)) j := by
  simp only [val_main_v37_apply, val_main_v36_apply, val_main_v35_apply, val_main_v34_apply, val_main_v33_apply,
    val_main_v32_apply, val_main_v31_apply, val_main_v30_apply, val_main_v29_apply, val_main_v28_apply, sp_v27,
    i35, i29, li28, ri28, i32, i31, sum3, Ideal.addf_def, Ideal.mulf_def, Ideal.hostUnary_tanh_def]
  simp only [lay, gate, chanParams]

theorem lowerL3 : val_main_v41 (F := Ideal) x0 x1 x2 x3 x4 x5 x6 x7 x8 x9 (ix3 c 0 n)
    = lay3 (chanParams x1 x2 x3 x4 x5 x6 x7 x8 x9 c).M3 (chanParams x1 x2 x3 x4 x5 x6 x7 x8 x9 c).B3 (fun k => val_main_v37 (F := Ideal) x0 x1 x2 x3 x5 x6 x7 x9 (ix3 c k n)) := by
  simp only [val_main_v41_apply, val_main_v40_apply, val_main_v39_apply, sp_v38, i40, li39, ri39, sum3,
    Ideal.addf_def, Ideal.mulf_def]
  simp only [lay3, chanParams]

/-- The lower logit at (c, 0, n) is the network at the layer input there. -/
theorem lower : val_main_v41 (F := Ideal) x0 x1 x2 x3 x4 x5 x6 x7 x8 x9 (ix3 c 0 n)
    = logits (chanParams x1 x2 x3 x4 x5 x6 x7 x8 x9 c) (val_main_v4 (F := Ideal) x0 (ix3 c 0 n)) := by
  rw [lowerL3]
  simp only [lowerL2 x0 x1 x2 x3 x4 x5 x6 x7 x8 x9, lowerL1 x0 x1 x2 x3 x4 x5 x6 x7 x8 x9, lowerL0 x0 x1 x2 x3 x4 x5 x6 x7 x8 x9]
  rfl

/-! ## The upper logit: the same layers on `q + 1/2` -/

theorem upperL0 : val_main_v54 (F := Ideal) x0 x1 x5 x9 (ix3 c j n)
    = lay0 (chanParams x1 x2 x3 x4 x5 x6 x7 x8 x9 c).M0 (chanParams x1 x2 x3 x4 x5 x6 x7 x8 x9 c).B0 (chanParams x1 x2 x3 x4 x5 x6 x7 x8 x9 c).T0 (val_main_v43 (F := Ideal) x0 (ix3 c 0 n)) j := by
  simp only [val_main_v54_apply, val_main_v53_apply, val_main_v52_apply, val_main_v51_apply, val_main_v50_apply,
    val_main_v49_apply, val_main_v48_apply, val_main_v47_apply, val_main_v46_apply, val_main_v45_apply, sp_v44,
    i52, i46, li45, ri45, i49, i48, sum1, Ideal.addf_def, Ideal.mulf_def, Ideal.hostUnary_tanh_def]
  simp only [lay0, gate, chanParams]

theorem upperL1 : val_main_v65 (F := Ideal) x0 x1 x2 x5 x6 x9 (ix3 c j n)
    = lay (chanParams x1 x2 x3 x4 x5 x6 x7 x8 x9 c).M1 (chanParams x1 x2 x3 x4 x5 x6 x7 x8 x9 c).B1 (chanParams x1 x2 x3 x4 x5 x6 x7 x8 x9 c).T1 (fun k => val_main_v54 (F := Ideal) x0 x1 x5 x9 (ix3 c k n)) j := by
  simp only [val_main_v65_apply, val_main_v64_apply, val_main_v63_apply, val_main_v62_apply, val_main_v61_apply,
    val_main_v60_apply, val_main_v59_apply, val_main_v58_apply, val_main_v57_apply, val_main_v56_apply, sp_v55,
    i63, i57, li56, ri56, i60, i59, sum3, Ideal.addf_def, Ideal.mulf_def, Ideal.hostUnary_tanh_def]
  simp only [lay, gate, chanParams]

theorem upperL2 : val_main_v76 (F := Ideal) x0 x1 x2 x3 x5 x6 x7 x9 (ix3 c j n)
    = lay (chanParams x1 x2 x3 x4 x5 x6 x7 x8 x9 c).M2 (chanParams x1 x2 x3 x4 x5 x6 x7 x8 x9 c).B2 (chanParams x1 x2 x3 x4 x5 x6 x7 x8 x9 c).T2 (fun k => val_main_v65 (F := Ideal) x0 x1 x2 x5 x6 x9 (ix3 c k n)) j := by
  simp only [val_main_v76_apply, val_main_v75_apply, val_main_v74_apply, val_main_v73_apply, val_main_v72_apply,
    val_main_v71_apply, val_main_v70_apply, val_main_v69_apply, val_main_v68_apply, val_main_v67_apply, sp_v66,
    i74, i68, li67, ri67, i71, i70, sum3, Ideal.addf_def, Ideal.mulf_def, Ideal.hostUnary_tanh_def]
  simp only [lay, gate, chanParams]

theorem upperL3 : val_main_v80 (F := Ideal) x0 x1 x2 x3 x4 x5 x6 x7 x8 x9 (ix3 c 0 n)
    = lay3 (chanParams x1 x2 x3 x4 x5 x6 x7 x8 x9 c).M3 (chanParams x1 x2 x3 x4 x5 x6 x7 x8 x9 c).B3 (fun k => val_main_v76 (F := Ideal) x0 x1 x2 x3 x5 x6 x7 x9 (ix3 c k n)) := by
  simp only [val_main_v80_apply, val_main_v79_apply, val_main_v78_apply, sp_v77, i79, li78, ri78, sum3,
    Ideal.addf_def, Ideal.mulf_def]
  simp only [lay3, chanParams]

/-- The upper logit at (c, 0, n) is the network at the layer input there. -/
theorem upper : val_main_v80 (F := Ideal) x0 x1 x2 x3 x4 x5 x6 x7 x8 x9 (ix3 c 0 n)
    = logits (chanParams x1 x2 x3 x4 x5 x6 x7 x8 x9 c) (val_main_v43 (F := Ideal) x0 (ix3 c 0 n)) := by
  rw [upperL3]
  simp only [upperL2 x0 x1 x2 x3 x4 x5 x6 x7 x8 x9, upperL1 x0 x1 x2 x3 x4 x5 x6 x7 x8 x9, upperL0 x0 x1 x2 x3 x4 x5 x6 x7 x8 x9]
  rfl

/-! ## The two layer inputs and the likelihood at a flat index -/

/-- The f32 word of `1.0` denotes 1. -/
theorem ofBits_one : Ideal.ofBits .f32 0x3F800000#32 = 1 := by
  simp [Ideal.ofBits, Ideal.ieee, -EReal.coe_mul]; norm_num

theorem lowerIn : val_main_v4 (F := Ideal) x0 (ix3 c 0 n) = quant (val_main_v1 (F := Ideal) x0 (ix3 c 0 n)) - half := by
  simp only [val_main_v4_apply, val_main_v3_apply, val_main_cst_apply, val_main_v2_apply]
  rfl

theorem upperIn : val_main_v43 (F := Ideal) x0 (ix3 c 0 n) = quant (val_main_v1 (F := Ideal) x0 (ix3 c 0 n)) + half := by
  simp only [val_main_v43_apply, val_main_v42_apply, val_main_cst_0_apply, val_main_v2_apply]
  rfl

/-- The likelihood at (c, 0, n): `lik` of channel `c`'s parameters and of the element held there. -/
theorem likFlat : val_main_v100 (F := Ideal) x0 x1 x2 x3 x4 x5 x6 x7 x8 x9 (ix3 c 0 n)
    = lik (chanParams x1 x2 x3 x4 x5 x6 x7 x8 x9 c) (val_main_v1 (F := Ideal) x0 (ix3 c 0 n)) := by
  simp only [val_main_v100_apply, val_main_v99_apply, val_main_cst_5_apply, val_main_v98_apply, val_main_v97_apply,
    val_main_v96_apply, val_main_v95_apply, val_main_cst_4_apply, val_main_v94_apply, val_main_v93_apply,
    val_main_cst_3_apply, val_main_v92_apply, val_main_v91_apply, val_main_v90_apply, val_main_v89_apply,
    val_main_v88_apply, val_main_cst_2_apply, val_main_v87_apply, val_main_v86_apply, val_main_cst_1_apply,
    val_main_v85_apply, val_main_v84_apply, val_main_v83_apply, val_main_v82_apply, val_main_v81_apply,
    lower x0 x1 x2 x3 x4 x5 x6 x7 x8 x9, upper x0 x1 x2 x3 x4 x5 x6 x7 x8 x9, lowerIn, upperIn, Ideal.ofBits_def, ofBits_one]
  rfl

end Layers

section Top
variable (x0 : TX) (x1 : T31) (x2 x3 : T33) (x4 : T13) (x5 x6 x7 : T31) (x8 : T11) (x9 : TF) (b : Fin 16) (c : Fin 192) (h w : Fin 64)

/-- The flat position of the element (b, ·, h, w) within its channel's row of 16 · 64 · 64 entries. -/
def flat (b : Fin 16) (h w : Fin 64) : Fin 65536 :=
  ⟨(b.val * 64 + h.val) * 64 + w.val, by have := b.isLt; have := h.isLt; have := w.isLt; omega⟩

/-- Batch and channel swapped. -/
theorem i104 : idx_main_v104 (ix4 b c h w) = ix4 c b h w := by
  funext a; match a with | ⟨0, _⟩ => rfl | ⟨1, _⟩ => rfl | ⟨2, _⟩ => rfl | ⟨3, _⟩ => rfl
theorem i102 : idx_main_v102 (ix4 b c h w) = ix4 c b h w := by
  funext a; match a with | ⟨0, _⟩ => rfl | ⟨1, _⟩ => rfl | ⟨2, _⟩ => rfl | ⟨3, _⟩ => rfl
theorem i0 : idx_main_v0 (ix4 c b h w) = ix4 b c h w := by
  funext a; match a with | ⟨0, _⟩ => rfl | ⟨1, _⟩ => rfl | ⟨2, _⟩ => rfl | ⟨3, _⟩ => rfl

/-- (c, b, h, w) of [192, 16, 64, 64] is the flat position (c, 0, (64 b + h) 64 + w) of [192, 1, 65536]. -/
theorem i103 : idx_main_v103 (ix4 c b h w) = ix3 c 0 (flat b h w) := by
  funext a; apply Fin.ext
  have hb := b.isLt; have hc := c.isLt; have hh := h.isLt; have hw := w.isLt
  match a with
  | ⟨0, _⟩ => show (((c.val * 16 + b.val) * 64 + h.val) * 64 + w.val) / 65536 = c.val; omega
  | ⟨1, _⟩ => rfl
  | ⟨2, _⟩ => show (((c.val * 16 + b.val) * 64 + h.val) * 64 + w.val) % 65536 = (b.val * 64 + h.val) * 64 + w.val; omega
theorem i101 : idx_main_v101 (ix4 c b h w) = ix3 c 0 (flat b h w) := by
  funext a; apply Fin.ext
  have hb := b.isLt; have hc := c.isLt; have hh := h.isLt; have hw := w.isLt
  match a with
  | ⟨0, _⟩ => show (((c.val * 16 + b.val) * 64 + h.val) * 64 + w.val) / 65536 = c.val; omega
  | ⟨1, _⟩ => rfl
  | ⟨2, _⟩ => show (((c.val * 16 + b.val) * 64 + h.val) * 64 + w.val) % 65536 = (b.val * 64 + h.val) * 64 + w.val; omega

/-- And back. -/
theorem i1 : idx_main_v1 (ix3 c 0 (flat b h w)) = ix4 c b h w := by
  funext a; apply Fin.ext
  have hb := b.isLt; have hc := c.isLt; have hh := h.isLt; have hw := w.isLt
  match a with
  | ⟨0, _⟩ => show ((c.val * 1 + 0) * 65536 + ((b.val * 64 + h.val) * 64 + w.val)) / 65536 = c.val; omega
  | ⟨1, _⟩ => show ((c.val * 1 + 0) * 65536 + ((b.val * 64 + h.val) * 64 + w.val)) / 4096 % 16 = b.val; omega
  | ⟨2, _⟩ => show ((c.val * 1 + 0) * 65536 + ((b.val * 64 + h.val) * 64 + w.val)) / 64 % 64 = h.val; omega
  | ⟨3, _⟩ => show ((c.val * 1 + 0) * 65536 + ((b.val * 64 + h.val) * 64 + w.val)) % 64 = w.val; omega

/-- The flat position (c, 0, (64 b + h) 64 + w) holds the element (b, c, h, w) of `x`. -/
theorem xFlat : val_main_v1 (F := Ideal) x0 (ix3 c 0 (flat b h w)) = x0 (ix4 b c h w) := by
  rw [val_main_v1_apply, val_main_v0_apply, i1, i0]

/-- The reference's likelihood at (b, c, h, w). -/
theorem refLik_apply : val_main_v104 (F := Ideal) x0 x1 x2 x3 x4 x5 x6 x7 x8 x9 (ix4 b c h w)
    = lik (chanParams x1 x2 x3 x4 x5 x6 x7 x8 x9 c) (x0 (ix4 b c h w)) := by
  rw [val_main_v104_apply, val_main_v103_apply, i104, i103, likFlat, xFlat]

/-- The reference's quantized result at (b, c, h, w). -/
theorem refRound_apply : val_main_v102 (F := Ideal) x0 (ix4 b c h w) = quant (x0 (ix4 b c h w)) := by
  rw [val_main_v102_apply, val_main_v101_apply, i102, i101, val_main_v2_apply, xFlat]
  rfl

end Top

/-- The reference's second result is `likA` of its arguments. -/
theorem refLik (x0 : TX) (x1 : T31) (x2 x3 : T33) (x4 : T13) (x5 x6 x7 : T31) (x8 : T11) (x9 : TF) :
    val_main_v104 (F := Ideal) x0 x1 x2 x3 x4 x5 x6 x7 x8 x9 = likA x0 x1 x2 x3 x4 x5 x6 x7 x8 x9 := by
  funext i
  obtain ⟨b, c, h, w, rfl⟩ : ∃ (b : Fin 16) (c : Fin 192) (h w : Fin 64), i = ix4 b c h w :=
    ⟨i 0, i 1, i 2, i 3, eq_ix4 i⟩
  exact refLik_apply x0 x1 x2 x3 x4 x5 x6 x7 x8 x9 b c h w

/-- The reference's first result is `roundA` of `x`. -/
theorem refRound (x0 : TX) : val_main_v102 (F := Ideal) x0 = roundA x0 := by
  funext i
  obtain ⟨b, c, h, w, rfl⟩ : ∃ (b : Fin 16) (c : Fin 192) (h w : Fin 64), i = ix4 b c h w :=
    ⟨i 0, i 1, i 2, i 3, eq_ix4 i⟩
  exact refRound_apply x0 b c h w

end Cert.Entropy

end
-- ==== Proof.lean ====
/-
  A factorized entropy model: the Pallas kernel against its jnp reference, on the extended reals.

  Both programs take `x` [16, 192, 64, 64] and, per channel, four small matrices, four biases and three gate
  factors, and return `round x` and the likelihood of each element: the element is quantized, the two
  arguments `q ∓ 1/2` go through a four-layer network (softplus of the matrices, gates `s + tanh(f)·tanh(s)`),
  and the likelihood is `max(|σ(s·up) - σ(s·lo)|, 1e-9)` with `s` the sign of `lo + up` (`Proof/Spec.lean`).

  The kernel keeps `x`'s layout and, on each block of one batch row and sixteen image rows, multiplies by
  per-channel scalars broadcast over the block, accumulating each layer's sum left to right. The reference
  moves the channel in front, flattens the rest and runs each layer as a batched matrix product. At every
  index both compute the same function of the same arguments: a product row is the same three terms summed in
  the same order, the host prepares the parameters (softplus, tanh) by the same operations on both sides, the
  kernel's sign is the order's sign, and the reference's spelt-out logistic function is the logistic function.
  No finiteness is needed: the only laws used are that a sum over three indices is the left-to-right sum and
  that reading an array operation at an index reads its operands at the corresponding indices.

  The modules: `Spec` (the scalar mathematics), `Model` (the results as functions of the argument arrays),
  `LayoutRead` and `KernelPay` (the kernel body at an index), `KernelBlocks` (blocks to arrays), `KernelHost`
  (the parameters the host prepares), `KernelRun`; `RefLayers` and `RefValue` (the reference at an index).
  The three frames are the generated frame proofs (the reference's is its generated run with the results
  dropped), and the kernel's idealization is the one sign-bit rewrite, the rule's own statement.
-/
import proofs.«107735_j82557861363977_2_alg».proof.Defs
import proofs.«107735_j82557861363977_2_alg».proof.Proof.Gen.Kernel
import proofs.«107735_j82557861363977_2_alg».proof.Proof.Gen.Kernel.Skeleton
import proofs.«107735_j82557861363977_2_alg».proof.Proof.Gen.Kernel.Launch
import proofs.«107735_j82557861363977_2_alg».proof.Proof.Gen.Kernel.Points
import proofs.«107735_j82557861363977_2_alg».proof.Proof.Gen.Kernel.Frame
import proofs.«107735_j82557861363977_2_alg».proof.Proof.Gen.KernelIdeal
import proofs.«107735_j82557861363977_2_alg».proof.Proof.Gen.KernelIdeal.Skeleton
import proofs.«107735_j82557861363977_2_alg».proof.Proof.Gen.KernelIdeal.Launch
import proofs.«107735_j82557861363977_2_alg».proof.Proof.Gen.KernelIdeal.Points
import proofs.«107735_j82557861363977_2_alg».proof.Proof.Gen.KernelIdeal.Frame
import proofs.«107735_j82557861363977_2_alg».proof.Proof.Gen.ReferenceIdeal
import proofs.«107735_j82557861363977_2_alg».proof.Proof.Gen.Pre_finite_inputs
import proofs.«107735_j82557861363977_2_alg».proof.Proof.Gen.ReferenceIdeal.Run
import proofs.«107735_j82557861363977_2_alg».proof.Proof.Gen.ReferenceIdeal.Read
import proofs.«107735_j82557861363977_2_alg».proof.Proof.KernelRun
import proofs.«107735_j82557861363977_2_alg».proof.Proof.RefValue
import Idealize.ShloMosaic.Adequacy
import Idealize.ShloMosaic.Init

noncomputable section

namespace Cert.Proof

open Idealize.ShloMosaic Idealize.ShloMosaic.TcCoe Idealize.SL.Sem

/-- The printed kernel runs and leaves its arguments unchanged: the generated frame proof. -/
theorem frame_k : Cert.frame_Kernel :=
  fun m ρ _ => Cert.Kernel.Gen.frame m ρ

/-- So does its idealization. -/
theorem frame_ki : Cert.frame_KernelIdeal :=
  fun m ρ _ => Cert.KernelIdeal.Gen.frame m ρ

/-- The reference runs and leaves its arguments unchanged: its generated run, the two results dropped. -/
theorem frame_ri : Cert.frame_ReferenceIdeal :=
  fun m ρ _ => (θ_run Cert.ReferenceIdeal.defs _ _).mono (fun _ h c => (h c).2.2)
    (Cert.ReferenceIdeal.Value.run (F := Ideal) m ρ)

/-- The idealization's one rewrite: "1.0 carrying the sign bit of the sum of the logits" read as `-1` below zero and
    `1` otherwise — the sign-bit rule's statement at the block's shape. -/
theorem preserves : Cert.preserves_Kernel_KernelIdeal :=
  IdealRules.sign_bit.statement Cert.KernelIdeal.S1x192x16x64 .f32

/-- On the extended reals the idealized kernel ends with `roundA` of `x` and `likA` of its arguments (`kernel_run`), and
    the reference's two result terms are the same two functions of arguments that agree (`refRound`, `refLik`). -/
theorem algebraic : Cert.algebraic_KernelIdeal_ReferenceIdeal := by
  intro m ρ m' ρ' _ hagree
  refine ⟨fun c => Cert.Entropy.roundA (m ((c.tc : Thread Cert.KernelIdeal.nD Cert.KernelIdeal.τ).loc Cert.KernelIdeal.main_arg0)),
    fun c => Cert.Entropy.likA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.Entropy.kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v102_eq, Cert.Entropy.refRound, (hagree c).1]
  · rw [Cert.ReferenceIdeal.Read.val_main_v104_eq, Cert.Entropy.refLik, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
